-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1000 : Shape := ⟨2, ![50000, 1000]⟩
abbrev S2000x64 : Shape := ⟨2, ![2000, 64]⟩
abbrev S64 : Shape := ⟨1, ![64]⟩
abbrev S64x2000 : Shape := ⟨2, ![64, 2000]⟩
abbrev S2000 : Shape := ⟨1, ![2000]⟩
abbrev S1600000 : Shape := ⟨1, ![1600000]⟩
abbrev S_ : Shape := ⟨0, ![]⟩

class Facts : Prop where
  bcast_S_S50000x1000 : S_.BroadcastsInDim S50000x1000 (![] : Fin 0 → Fin S50000x1000.rank)
  reducesTo_S50000x1000_S_d0_1 : S50000x1000.ReducesTo [0, 1] S_
  h_S_ : 0 < S_.numel
  bcast_S_S2000x64 : S_.BroadcastsInDim S2000x64 (![] : Fin 0 → Fin S2000x64.rank)
  reducesTo_S2000x64_S_d0_1 : S2000x64.ReducesTo [0, 1] S_
  bcast_S_S64 : S_.BroadcastsInDim S64 (![] : Fin 0 → Fin S64.rank)
  reducesTo_S64_S_d0 : S64.ReducesTo [0] S_
  bcast_S_S64x2000 : S_.BroadcastsInDim S64x2000 (![] : Fin 0 → Fin S64x2000.rank)
  reducesTo_S64x2000_S_d0_1 : S64x2000.ReducesTo [0, 1] S_
  bcast_S_S2000 : S_.BroadcastsInDim S2000 (![] : Fin 0 → Fin S2000.rank)
  reducesTo_S2000_S_d0 : S2000.ReducesTo [0] S_

variable [Facts]

def fn_part1 {F : FTy → Type} [FloatOps F] (main_arg4 : FVec F S64x2000 .f32) (main_arg5 : FVec F S2000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x2000 .f32 := Host.absf main_arg4
  let main_cst_6 : FVec F S_ .f32 := constant S_ .f32 0x7F800000#32
  let main_v20 : FVec F S64x2000 .f32 := broadcastInDim S64x2000 ![] bcast_S_S64x2000 main_cst_6
  let main_v21 : IVec S64x2000 1 := cmpf .olt main_v19 main_v20
  let main_c_7 : IVec S_ 1 := constantI S_ 1 1#1
  let main_v22 : IVec S_ 1 := (fun x v => Host.reduce IntOp.andi x v reducesTo_S64x2000_S_d0_1 h_S_) main_v21 main_c_7
  let main_v23 : IVec S_ 1 := andi main_v18 main_v22
  let main_v24 : FVec F S2000 .f32 := Host.absf main_arg5
  let main_cst_8 : FVec F S_ .f32 := constant S_ .f32 0x7F800000#32
  let main_v25 : FVec F S2000 .f32 := broadcastInDim S2000 ![] bcast_S_S2000 main_cst_8
  let main_v26 : IVec S2000 1 := cmpf .olt main_v24 main_v25
  let main_c_9 : IVec S_ 1 := constantI S_ 1 1#1
  let main_v27 : IVec S_ 1 := (fun x v => Host.reduce IntOp.andi x v reducesTo_S2000_S_d0 h_S_) main_v26 main_c_9
  let main_v28 : IVec S_ 1 := andi main_v23 main_v27
  main_v28

def fn {F : FTy → Type} [FloatOps F] (main_arg0 : FVec F S50000x1000 .f32) (main_arg1 : FVec F S50000x1000 .f32) (main_arg2 : FVec F S2000x64 .f32) (main_arg3 : FVec F S64 .f32) (main_arg4 : FVec F S64x2000 .f32) (main_arg5 : FVec F S2000 .f32) (main_arg6 : IVec S1600000 32) (main_arg7 : IVec S1600000 32) : IVec S_ 1 :=
  let main_v0 : FVec F S50000x1000 .f32 := Host.absf main_arg0
  let main_cst : FVec F S_ .f32 := constant S_ .f32 0x7F800000#32
  let main_v1 : FVec F S50000x1000 .f32 := broadcastInDim S50000x1000 ![] bcast_S_S50000x1000 main_cst
  let main_v2 : IVec S50000x1000 1 := cmpf .olt main_v0 main_v1
  let main_c : IVec S_ 1 := constantI S_ 1 1#1
  let main_v3 : IVec S_ 1 := (fun x v => Host.reduce IntOp.andi x v reducesTo_S50000x1000_S_d0_1 h_S_) main_v2 main_c
  let main_v4 : FVec F S50000x1000 .f32 := Host.absf main_arg1
  let main_cst_0 : FVec F S_ .f32 := constant S_ .f32 0x7F800000#32
  let main_v5 : FVec F S50000x1000 .f32 := broadcastInDim S50000x1000 ![] bcast_S_S50000x1000 main_cst_0
  let main_v6 : IVec S50000x1000 1 := cmpf .olt main_v4 main_v5
  let main_c_1 : IVec S_ 1 := constantI S_ 1 1#1
  let main_v7 : IVec S_ 1 := (fun x v => Host.reduce IntOp.andi x v reducesTo_S50000x1000_S_d0_1 h_S_) main_v6 main_c_1
  let main_v8 : IVec S_ 1 := andi main_v3 main_v7
  let main_v9 : FVec F S2000x64 .f32 := Host.absf main_arg2
  let main_cst_2 : FVec F S_ .f32 := constant S_ .f32 0x7F800000#32
  let main_v10 : FVec F S2000x64 .f32 := broadcastInDim S2000x64 ![] bcast_S_S2000x64 main_cst_2
  let main_v11 : IVec S2000x64 1 := cmpf .olt main_v9 main_v10
  let main_c_3 : IVec S_ 1 := constantI S_ 1 1#1
  let main_v12 : IVec S_ 1 := (fun x v => Host.reduce IntOp.andi x v reducesTo_S2000x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S50000x1000 : Shape := ⟨2, ![50000, 1000]⟩
abbrev S2000x64 : Shape := ⟨2, ![2000, 64]⟩
abbrev S64 : Shape := ⟨1, ![64]⟩
abbrev S64x2000 : Shape := ⟨2, ![64, 2000]⟩
abbrev S2000 : Shape := ⟨1, ![2000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1000x64 : Shape := ⟨2, ![1000, 64]⟩
abbrev S50000x1 : Shape := ⟨2, ![50000, 1]⟩
abbrev S50000x64 : Shape := ⟨2, ![50000, 64]⟩
abbrev S1000x1000 : Shape := ⟨2, ![1000, 1000]⟩
abbrev S1000x1 : Shape := ⟨2, ![1000, 1]⟩
abbrev S1600000x64 : Shape := ⟨2, ![1600000, 64]⟩
abbrev S1x64 : Shape := ⟨2, ![1, 64]⟩
abbrev S64x1000 : Shape := ⟨2, ![64, 1000]⟩
abbrev S1000 : Shape := ⟨1, ![1000]⟩
abbrev S1x1000 : Shape := ⟨2, ![1, 1000]⟩

abbrev nBuf : Space → Nat
  | .hbm => 78
  | .vmem => 22
  | .smem => 0
  | _ => 0

abbrev bufTy : (tb : Table) → Fin (tcTables nBuf tb) → BufTy
  | .hbm, ⟨0, _⟩ => ⟨S50000x1000, .f32⟩
  | .hbm, ⟨1, _⟩ => ⟨S50000x1000, .f32⟩
  | .hbm, ⟨2, _⟩ => ⟨S2000x64, .f32⟩
  | .hbm, ⟨3, _⟩ => ⟨S64, .f32⟩
  | .hbm, ⟨4, _⟩ => ⟨S64x2000, .f32⟩
  | .hbm, ⟨5, _⟩ => ⟨S2000, .f32⟩
  | .hbm, ⟨6, _⟩ => ⟨S1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S50000, .f32⟩
  | .hbm, ⟨12, _⟩ => ⟨S1600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S1000x64, .f32⟩
  | .hbm, ⟨27, _⟩ => ⟨S1000x64, .f32⟩
  | .hbm, ⟨28, _⟩ => ⟨S50000x1, .f32⟩
  | .hbm, ⟨29, _⟩ => ⟨S50000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S50000x64, .f32⟩
  | .hbm, ⟨41, _⟩ => ⟨S1600000x1, .i32⟩
  | .hbm, ⟨42, _⟩ => ⟨S50000x64, .f32⟩
  | .hbm, ⟨43, _⟩ => ⟨S50000x1, .f32⟩
  | .hbm, ⟨44, _⟩ => ⟨S50000x64, .f32⟩
  | .hbm, ⟨45, _⟩ => ⟨S50000x64, .f32⟩
  | .hbm, ⟨46, _⟩ => ⟨S1x64, .f32⟩
  | .hbm, ⟨47, _⟩ => ⟨S50000x64, .f32⟩
  | .hbm, ⟨48, _⟩ => ⟨S50000x64, .f32⟩
  | .hbm, ⟨49, _⟩ => ⟨S_, .f32⟩
  | .hbm, ⟨50, _⟩ => ⟨S50000x64, .f32⟩
  | .hbm, ⟨51, _⟩ => ⟨S50000x64, .f32⟩
  | .hbm, ⟨52, _⟩ => ⟨S50000x1, .f32⟩
  | .hbm, ⟨53, _⟩ => ⟨S50000x64, .f32⟩
  | .hbm, ⟨54, _⟩ => ⟨S50000x64, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S_, .f32⟩
  | .hbm, ⟨65, _⟩ => ⟨S50000x64, .f32⟩
  | .hbm, ⟨66, _⟩ => ⟨S1600000x1, .i32⟩
  | .hbm, ⟨67, _⟩ => ⟨S50000x64, .f32⟩
  | .hbm, ⟨68, _⟩ => ⟨S50000x1, .f32⟩
  | .hbm, ⟨69, _⟩ => ⟨S50000x64, .f32⟩
  | .hbm, ⟨70, _⟩ => ⟨S50000x64, .f32⟩
  | .hbm, ⟨71, _⟩ => ⟨S64x1000, .f32⟩
  | .hbm, ⟨72, _⟩ => ⟨S64x1000, .f32⟩
  | .hbm, ⟨73, _⟩ => ⟨S1000, .f32⟩
  | .hbm, ⟨74, _⟩ => ⟨S1x1000, .f32⟩
  | .hbm, ⟨75, _⟩ => ⟨S1000, .f32⟩
  | .hbm, ⟨76, _⟩ => ⟨S1x1000, .f32⟩
  | .hbm, ⟨77, _⟩ => ⟨S50000x1000, .f32⟩
  | .local _ .vmem, ⟨0, _⟩ => ⟨S1000x1000, .f32⟩
  | .local _ .vmem, ⟨1, _⟩ => ⟨S1000x1000, .f32⟩
  | .local _ .vmem, ⟨2, _⟩ => ⟨S1000x1000, .f32⟩
  | .local _ .vmem, ⟨3, _⟩ => ⟨S1000x1000, .f32⟩
  | .local _ .vmem, ⟨4, _⟩ => ⟨S1000x64, .f32⟩
  | .local _ .vmem, ⟨5, _⟩ => ⟨S1000x64, .f32⟩
  | .local _ .vmem, ⟨6, _⟩ => ⟨S1000x1, .f32⟩
  | .local _ .vmem, ⟨7, _⟩ => ⟨S1000x1, .f32⟩
  | .local _ .vmem, ⟨8, _⟩ => ⟨S1000x64, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S64x1000, .f32⟩
  | .local _ .vmem, ⟨13, _⟩ => ⟨S64x1000, .f32⟩
  | .local _ .vmem, ⟨14, _⟩ => ⟨S1x1000, .f32⟩
  | .local _ .vmem, ⟨15, _⟩ => ⟨S1x1000, .f32⟩
  | .local _ .vmem, ⟨16, _⟩ => ⟨S1000x1000, .f32⟩
  | .local _ .vmem, ⟨17, _⟩ => ⟨S1000x1000, .f32⟩
  | .local _ .vmem, ⟨18, _⟩ => ⟨S1000x1000, .f32⟩
  | .local _ .vmem, ⟨19, _⟩ => ⟨S1000x1000, .f32⟩
  | .local _ .vmem, ⟨20, _⟩ => ⟨S1000x1000, .f32⟩
  | .local _ .vmem, ⟨21, _⟩ => ⟨S1000x1000, .f32⟩
  | _, _ => ⟨S50000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_cst : Ref sig .tc := ⟨.hbm, 49, rfl⟩
abbrev main_call0_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x1000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1000x1000 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1000x1000 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  slices_S2000x64_S1000x64_0_0 : S2000x64.Slices ![0, 0] S1000x64
  slices_S2000x64_S1000x64_1000_0 : S2000x64.Slices ![1000, 0] S1000x64
  shapeCasts_S50000_S50000x1 : S50000.ShapeCasts S50000x1
  inb_S1000x1000_S1000x1000_0_0 : ∀ a, (![0, 0] : Fin 2 → Nat) a + S1000x1000.size a ≤ S1000x1000.size a
  h_S1000x1000 : 0 < S1000x1000.numel
  bitsLt_bf16_f32 : FTy.bits .bf16 < FTy.bits .f32
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x64 : S1000x1.Broadcasts S1000x64
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S64x2000_S64x1000_0_0 : S64x2000.Slices ![0, 0] S64x1000
  slices_S64x2000_S64x1000_0_1000 : S64x2000.Slices ![0, 1000] S64x1000
  slices_S2000_S1000_0 : S2000.Slices ![0] S1000
  shapeCasts_S1000_S1x1000 : S1000.ShapeCasts S1x1000
  slices_S2000_S1000_1000 : S2000.Slices ![1000] S1000
  inb_S64x1000_S64x1000_0_0 : ∀ a, (![0, 0] : Fin 2 → Nat) a + S64x1000.size a ≤ S64x1000.size a
  h_S64x1000 : 0 < S64x1000.numel
  shapeCasts_S64x1000_S64x1000 : S64x1000.ShapeCasts S64x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1000x1000 : S1x1000.Broadcasts S1000x1000
  scatter_S50000_S1600000x1_S1600000_n_0_0_1_wf : ScatterDims.WF S50000 S1600000x1 S1600000 [] [0] [0] 1
  dot_S1000x1000_S1000x64_S1000x64_1_0_0_1_n_n_wf : DotDims.WF S1000x1000 S1000x64 S1000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S1000x64_S64x1000_S1000x1000_1_0_0_1_n_n_wf : DotDims.WF S1000x64 S64x1000 S1000x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1000.size a ≤ S50000x1000.size a
  hwx0_0 : ∀ i : grid0.Coords, EltTy.bits .f32 = 32 ∨ (Rect.block (s := S50000x1000) S1000x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1000.size a ≤ S50000x1000.size a
  hwx0_1 : ∀ i : grid0.Coords, EltTy.bits .f32 = 32 ∨ (Rect.block (s := S50000x1000) S1000x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x64.size a ≤ S1000x64.size a
  hwx0_2 : ∀ i : grid0.Coords, EltTy.bits .f32 = 32 ∨ (Rect.block (s := S1000x64) S1000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S1000x64.size a
  hwx0_3 : ∀ i : grid0.Coords, EltTy.bits .f32 = 32 ∨ (Rect.block (s := S1000x64) S1000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x1.size a ≤ S50000x1.size a
  hwx0_4 : ∀ i : grid0.Coords, EltTy.bits .f32 = 32 ∨ (Rect.block (s := S50000x1) S1000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x64.size a ≤ S50000x64.size a
  hwx0_5 : ∀ i : grid0.Coords, EltTy.bits .f32 = 32 ∨ (Rect.block (s := S50000x64) S1000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S50000x64.size a
  hwx1_0 : ∀ i : grid1.Coords, EltTy.bits .f32 = 32 ∨ (Rect.block (s := S50000x64) S1000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1000.size a ≤ S64x1000.size a
  hwx1_1 : ∀ i : grid1.Coords, EltTy.bits .f32 = 32 ∨ (Rect.block (s := S64x1000) S64x1000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1000.size a ≤ S64x1000.size a
  hwx1_2 : ∀ i : grid1.Coords, EltTy.bits .f32 = 32 ∨ (Rect.block (s := S64x1000) S64x1000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1000.size a ≤ S1x1000.size a
  hwx1_3 : ∀ i : grid1.Coords, EltTy.bits .f32 = 32 ∨ (Rect.block (s := S1x1000) S1x1000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1000.size a ≤ S1x1000.size a
  hwx1_4 : ∀ i : grid1.Coords, EltTy.bits .f32 = 32 ∨ (Rect.block (s := S1x1000) S1x1000.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x1000.size a ≤ S50000x1000.size a
  hwx1_5 : ∀ i : grid1.Coords, EltTy.bits .f32 = 32 ∨ (Rect.block (s := S50000x1000) S1000x1000.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x1000.size a ≤ S50000x1000.size a
  hwx1_6 : ∀ i : grid1.Coords, EltTy.bits .f32 = 32 ∨ (Rect.block (s := S50000x1000) S1000x1000.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x1000.size a ≤ S50000x1000.size a
  hwx1_7 : ∀ i : grid1.Coords, EltTy.bits .f32 = 32 ∨ (Rect.block (s := S50000x1000) S1000x1000.size (cc1_transform_7 i) (hinb1_7 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S1000x1000_S1000x64_S1000x64_1_0_0_1_n_n : DotDims S1000x1000 S1000x64 S1000x64 where
  lhsContracting := [1]
  rhsContracting := [0]
  lhsNonContracting := [0]
  rhsNonContracting := [1]
  lhsBatch := []
  rhsBatch := []
  wf := dot_S1000x1000_S1000x64_S1000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S1000x64_S64x1000_S1000x1000_1_0_0_1_n_n : DotDims S1000x64 S64x1000 S1000x1000 where
  lhsContracting := [1]
  rhsContracting := [0]
  lhsNonContracting := [0]
  rhsNonContracting := [1]
  lhsBatch := []
  rhsBatch := []
  wf := dot_S1000x64_S64x1000_S1000x1000_1_0_0_1_n_n_wf

abbrev win0_0 : Pipeline.Window sig grid0 :=
  Pipeline.Window.ofSpec (Memref.whole main_arg0) S1000x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1000x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1000x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S64x1000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S64x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x1000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x1000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S1000x1000.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg1) S1000x1000.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v56) S1000x1000.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x1000 : Shape := ⟨2, ![50000, 1000]⟩
abbrev S2000x64 : Shape := ⟨2, ![2000, 64]⟩
abbrev S64 : Shape := ⟨1, ![64]⟩
abbrev S64x2000 : Shape := ⟨2, ![64, 2000]⟩
abbrev S2000 : Shape := ⟨1, ![2000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x2000 : Shape := ⟨2, ![50000, 2000]⟩
abbrev S50000x64 : Shape := ⟨2, ![50000, 64]⟩
abbrev S50000x1 : Shape := ⟨2, ![50000, 1]⟩
abbrev S1600000x64 : Shape := ⟨2, ![1600000, 64]⟩
abbrev S1x64 : Shape := ⟨2, ![1, 64]⟩
abbrev S1x2000 : Shape := ⟨2, ![1, 2000]⟩

abbrev nBuf : Space → Nat
  | .hbm => 81
  | .vmem => 0
  | .smem => 0
  | _ => 0

abbrev bufTy : (tb : Table) → Fin (tcTables nBuf tb) → BufTy
  | .hbm, ⟨0, _⟩ => ⟨S50000x1000, .f32⟩
  | .hbm, ⟨1, _⟩ => ⟨S50000x1000, .f32⟩
  | .hbm, ⟨2, _⟩ => ⟨S2000x64, .f32⟩
  | .hbm, ⟨3, _⟩ => ⟨S64, .f32⟩
  | .hbm, ⟨4, _⟩ => ⟨S64x2000, .f32⟩
  | .hbm, ⟨5, _⟩ => ⟨S2000, .f32⟩
  | .hbm, ⟨6, _⟩ => ⟨S1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S50000, .f32⟩
  | .hbm, ⟨12, _⟩ => ⟨S1600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x2000, .f32⟩
  | .hbm, ⟨27, _⟩ => ⟨S50000x64, .f32⟩
  | .hbm, ⟨28, _⟩ => ⟨S50000x1, .f32⟩
  | .hbm, ⟨29, _⟩ => ⟨S50000x64, .f32⟩
  | .hbm, ⟨30, _⟩ => ⟨S50000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S50000x64, .f32⟩
  | .hbm, ⟨42, _⟩ => ⟨S1600000x1, .i32⟩
  | .hbm, ⟨43, _⟩ => ⟨S50000x64, .f32⟩
  | .hbm, ⟨44, _⟩ => ⟨S50000x1, .f32⟩
  | .hbm, ⟨45, _⟩ => ⟨S50000x64, .f32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S_, .f32⟩
  | .hbm, ⟨51, _⟩ => ⟨S50000x64, .f32⟩
  | .hbm, ⟨52, _⟩ => ⟨S50000x64, .f32⟩
  | .hbm, ⟨53, _⟩ => ⟨S50000x1, .f32⟩
  | .hbm, ⟨54, _⟩ => ⟨S50000x64, .f32⟩
  | .hbm, ⟨55, _⟩ => ⟨S50000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S50000x64, .f32⟩
  | .hbm, ⟨67, _⟩ => ⟨S1600000x1, .i32⟩
  | .hbm, ⟨68, _⟩ => ⟨S50000x64, .f32⟩
  | .hbm, ⟨69, _⟩ => ⟨S50000x1, .f32⟩
  | .hbm, ⟨70, _⟩ => ⟨S50000x64, .f32⟩
  | .hbm, ⟨71, _⟩ => ⟨S50000x64, .f32⟩
  | .hbm, ⟨72, _⟩ => ⟨S50000x2000, .f32⟩
  | .hbm, ⟨73, _⟩ => ⟨S1x2000, .f32⟩
  | .hbm, ⟨74, _⟩ => ⟨S50000x2000, .f32⟩
  | .hbm, ⟨75, _⟩ => ⟨S50000x2000, .f32⟩
  | .hbm, ⟨76, _⟩ => ⟨S50000x1000, .f32⟩
  | .hbm, ⟨77, _⟩ => ⟨S50000x1000, .f32⟩
  | .hbm, ⟨78, _⟩ => ⟨S50000x1000, .f32⟩
  | .hbm, ⟨79, _⟩ => ⟨S50000x1000, .f32⟩
  | .hbm, ⟨80, _⟩ => ⟨S50000x1000, .f32⟩
  | _, _ => ⟨S50000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  concatenates_S50000x1000_S50000x1000_S50000x2000_d1 : Shape.Concatenates [S50000x1000, S50000x1000] S50000x2000 1
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S2000_S1x2000_1 : S2000.BroadcastsInDim S1x2000 (![1] : Fin 1 → Fin S1x2000.rank)
  bcast_S1x2000_S50000x2000_0_1 : S1x2000.BroadcastsInDim S50000x2000 (![0, 1] : Fin 2 → Fin S50000x2000.rank)
  slices_S50000x2000_S50000x1000_0_0 : S50000x2000.Slices ![0, 0] S50000x1000
  slices_S50000x2000_S50000x1000_0_1000 : S50000x2000.Slices ![0, 1000] S50000x1000
  scatter_S50000_S1600000x1_S1600000_n_0_0_1_wf : ScatterDims.WF S50000 S1600000x1 S1600000 [] [0] [0] 1
  dot_S50000x2000_S2000x64_S50000x64_1_0_0_1_n_n_wf : DotDims.WF S50000x2000 S2000x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x2000_S50000x2000_1_0_0_1_n_n_wf : DotDims.WF S50000x64 S64x2000 S50000x2000 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x2000_S2000x64_S50000x64_1_0_0_1_n_n : DotDims S50000x2000 S2000x64 S50000x64 where
  lhsContracting := [1]
  rhsContracting := [0]
  lhsNonContracting := [0]
  rhsNonContracting := [1]
  lhsBatch := []
  rhsBatch := []
  wf := dot_S50000x2000_S2000x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x2000_S50000x2000_1_0_0_1_n_n : DotDims S50000x64 S64x2000 S50000x2000 where
  lhsContracting := [1]
  rhsContracting := [0]
  lhsNonContracting := [0]
  rhsNonContracting := [1]
  lhsBatch := []
  rhsBatch := []
  wf := dot_S50000x64_S64x2000_S50000x2000_1_0_0_1_n_n_wf

class Facts : Prop extends Facts₀ where

variable [Facts]
-- ==== Proof.KernelRun.lean ====
/-
  The kernel program's run with its result array named.

  The program is host operations, a first pallas_call (the layer-0 projection), more host operations (the two
  edge aggregations and the relu between them), and a second pallas_call (the layer-1 projection fused with the
  gate). Its run is a chain of six segments, and the contents of every unscoped buffer at the end of the chain are a
  fold through those segments from the launch memory: `Gen.W6 m ρ c`. Here the chain is launched once more with the
  final state read at EVERY unscoped buffer, so that the result buffer is named (`W6` at the result's reference)
  beside the eight arguments, which the fold walks back to the launch memory.
-/
import proofs.«166413_j1649267442174_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v56) = W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v56 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

/-- The result buffer at the last boundary is what the second pallas_call's write-backs leave in its output array. -/
theorem W6_result (c : Dev nD) : W6 m ρ c (Proc.devRef .tc main_v56) = (dat1 (V5 m ρ) c).arrAt 7 cfg1.N :=
  W6_arr m ρ c 7

end Cert.KernelIdeal.Whole

end
-- ==== Proof.Region0.lean ====
/-
  The first pallas_call, as one function of the arrays it finds.

  Its grid has 50 points; point `t` takes rows `1000 t … 1000 t + 999` of the two feature arrays `xu`, `xs` and of the
  column of source norms `ns`, the two weight halves `wu`, `ws` whole, and writes rows `1000 t … 1000 t + 999` of the
  output. The body multiplies on the matrix unit into a zero accumulator (narrowing to bf16 first, which is the
  identity on extended reals), adds the two products and scales each row:

      out[r, j] = (Σ_{k < 1000} xu[r, k] · wu[k, j]  +  Σ_{k < 1000} xs[r, k] · ws[k, j]) · ns[r, 0]

  Every row depends only on the same row of the inputs, so block `t` of this one function is what point `t` writes,
  and the 50 blocks tile the 50000 rows: the output array ends holding the function.
-/
import proofs.«166413_j1649267442174_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0

open Cert.KernelIdeal Cert.KernelIdeal.Gen Idealize.ShloMosaic Idealize.ShloMosaic.TcCoe Idealize.ShloMosaic.ValueIdx Idealize.SL.Sem
open Idealize.ShloMosaic.Pipeline (Dat)

/-- The layer-0 matrix product's dimension numbers: rows of the left operand against columns of the right. -/
abbrev D0 := dot_S1000x1000_S1000x64_S1000x64_1_0_0_1_n_n

theorem lhs0_0 (i : S1000x64.Idx) (q : D0.contr.Idx) : (D0.lhsIdx i q 0).val = (i 0).val := by
  unfold DotDims.lhsIdx
  rw [dif_neg (show ¬(0 : Fin S1000x1000.rank) ∈ D0.lhsBatch by decide), dif_pos (show (0 : Fin S1000x1000.rank) ∈ D0.lhsNonContracting by decide)]
  rfl
theorem lhs0_1 (i : S1000x64.Idx) (q : D0.contr.Idx) : (D0.lhsIdx i q 1).val = (q ⟨0, by decide⟩).val :=
  D0.lhsIdx_val_of_single rfl i q
theorem rhs0_0 (i : S1000x64.Idx) (q : D0.contr.Idx) : (D0.rhsIdx i q 0).val = (q ⟨0, by decide⟩).val :=
  D0.rhsIdx_val_of_single rfl i q
theorem rhs0_1 (i : S1000x64.Idx) (q : D0.contr.Idx) : (D0.rhsIdx i q 1).val = (i 1).val := by
  unfold DotDims.rhsIdx
  rw [dif_neg (show ¬(1 : Fin S1000x64.rank) ∈ D0.rhsBatch by decide), dif_pos (show (1 : Fin S1000x64.rank) ∈ D0.rhsNonContracting by decide)]
  rfl

/-- The matrix unit's product into a zero accumulator, read at row `p`, column `q`: the sum over the 1000 contracted
    positions of left `[p, k]` times right `[k, q]`. -/
theorem matmul0_apply (l : FVec Ideal S1000x1000 .bf16) (r : FVec Ideal S1000x64 .bf16) (p : Fin 1000) (q : Fin 64) :
    matmul D0 none l r (constant (F := Ideal) S1000x64 .f32 0x00000000#32) (ix2 p q) = ∑ k : Fin 1000, l (ix2 p k) * r (ix2 k q) := by
  show FloatOps.matmul D0 none l r (constant (F := Ideal) S1000x64 .f32 0x00000000#32) (ix2 p q) = _
  rw [Ideal.matmul_constant_zero_apply, ← Equiv.sum_comp (contrEquiv1 D0 1000 rfl rfl).symm]
  refine Finset.sum_congr rfl fun k _ => ?_
  have hk := contrEquiv1_symm_val D0 1000 rfl rfl k
  have el : D0.lhsIdx (ix2 p q) ((contrEquiv1 D0 1000 rfl rfl).symm k) = ix2 p k := funext fun a => Fin.ext (by
    match a with
    | ⟨0, _⟩ => exact lhs0_0 _ _
    | ⟨1, _⟩ => exact (lhs0_1 _ _).trans hk)
  have er : D0.rhsIdx (ix2 p q) ((contrEquiv1 D0 1000 rfl rfl).symm k) = ix2 k q := funext fun a => Fin.ext (by
    match a with
    | ⟨0, _⟩ => exact (rhs0_0 _ _).trans hk
    | ⟨1, _⟩ => exact rhs0_1 _ _)
  rw [el, er]

/-- The per-row scale: the column of norms repeated along the 64 features, read at row `p`, column `q`. -/
theorem scale0_apply (x4 : FVec Ideal S1000x1 .f32) (p : Fin 1000) (q : Fin 64) :
    broadcastTo S1000x64 (shapeCast S1000x1 x4 Facts₀.shapeCasts_S1000x1_S1000x1) Facts₀.broadcasts_S1000x1_S1000x64 (ix2 p q) = x4 (ix2 p 0) := by
  rw [shapeCast_self]
  refine broadcastTo_apply x4 _ (ix2 p q) (ix2 p 0) fun a => ?_
  match a with
  | ⟨0, _⟩ => show p.val = if (1000 : Nat) = 1 then 0 else p.val; rw [if_neg (by decide)]
  | ⟨1, _⟩ => show (0 : Nat) = if (1 : Nat) = 1 then 0 else q.val; rw [if_pos rfl]

/-- What the body stores, read at row `p`, column `q` of the block, from the five loaded blocks. -/
theorem pay0_apply (x0 x1 : FVec Ideal S1000x1000 .f32) (x2 x3 : FVec Ideal S1000x64 .f32) (x4 : FVec Ideal S1000x1 .f32)
    (p : Fin 1000) (q : Fin 64) :
    k0_pay1 (F := Ideal) x0 x1 x2 x3 x4 (ix2 p q)
      = (∑ k : Fin 1000, x0 (ix2 p k) * x2 (ix2 k q) + ∑ k : Fin 1000, x1 (ix2 p k) * x3 (ix2 k q)) * x4 (ix2 p 0) := by
  unfold k0_pay1
  rw [shapeCast_self x2, shapeCast_self x3]
  refine (mulf_apply _ _ _).trans ?_
  rw [scale0_apply]
  refine congrArg (· * x4 (ix2 p 0)) ?_
  refine (addf_apply _ _ _).trans ?_
  rw [matmul0_apply, matmul0_apply]
  rfl

/-- The layer-0 projection as one function of the whole arrays. -/
def rows (xu xs : S50000x1000.Idx → EReal) (wu ws : S1000x64.Idx → EReal) (ns : S50000x1.Idx → EReal) : S50000x64.Idx → EReal :=
  fun i => (∑ k : Fin 1000, xu (ix2 (i 0) k) * wu (ix2 k (i 1)) + ∑ k : Fin 1000, xs (ix2 (i 0) k) * ws (ix2 k (i 1))) * ns (ix2 (i 0) 0)

/-- `rows` at row `r`, column `q`. -/
theorem rows_apply (xu xs : S50000x1000.Idx → EReal) (wu ws : S1000x64.Idx → EReal) (ns : S50000x1.Idx → EReal) (r : Fin 50000) (q : Fin 64) :
    rows xu xs wu ws ns (ix2 r q)
      = (∑ k : Fin 1000, xu (ix2 r k) * wu (ix2 k q) + ∑ k : Fin 1000, xs (ix2 r k) * ws (ix2 k q)) * ns (ix2 r 0) := rfl

/-! ## From the 50 blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The six index maps over the grid: the row-blocked windows are at block row `t`, the weights at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of point `t`'s block of the first feature array is row `1000 t + p` of the array. -/
theorem blk0_apply (c : Dev nD) (t : Fin cfg0.N) (p k : Fin 1000) (r : Fin 50000) (hr : r.val = t.val * 1000 + p.val) :
    (iblk0 V c 0 t : Vec Ideal S1000x1000 .f32) (ix2 p k) = (V c main_arg0 : S50000x1000.Idx → Elt Ideal .f32) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 1000 + 1 * p.val = r.val; rw [e0, hr]; omega
  | ⟨1, _⟩ => show win0_0.index t (1 : Fin 2) * 1000 + 1 * k.val = k.val; rw [e1]; omega

/-- The same for the second feature array. -/
theorem blk1_apply (c : Dev nD) (t : Fin cfg0.N) (p k : Fin 1000) (r : Fin 50000) (hr : r.val = t.val * 1000 + p.val) :
    (iblk0 V c 1 t : Vec Ideal S1000x1000 .f32) (ix2 p k) = (V c main_arg1 : S50000x1000.Idx → Elt Ideal .f32) (ix2 r k) := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t (0 : Fin 2) * 1000 + 1 * p.val = r.val; rw [e0, hr]; omega
  | ⟨1, _⟩ => show win0_1.index t (1 : Fin 2) * 1000 + 1 * k.val = k.val; rw [e1]; omega

/-- Every point's block of the first weight half is the whole half. -/
theorem blk2_apply (c : Dev nD) (t : Fin cfg0.N) (k : Fin 1000) (q : Fin 64) :
    (iblk0 V c 2 t : Vec Ideal S1000x64 .f32) (ix2 k q) = (V c main_v13 : S1000x64.Idx → Elt Ideal .f32) (ix2 k q) := by
  obtain ⟨-, -, -, -, e0, e1, -⟩ := idx_facts t
  unfold iblk0
  rw [View.read_apply]
  show V c main_v13 _ = V c main_v13 _
  congr 1
  funext a
  apply Fin.ext
  match a with
  | ⟨0, _⟩ => show win0_2.index t (0 : Fin 2) * 1000 + 1 * k.val = k.val; rw [e0]; omega
  | ⟨1, _⟩ => show win0_2.index t (1 : Fin 2) * 64 + 1 * q.val = q.val; rw [e1]; omega

/-- The same for the second weight half. -/
theorem blk3_apply (c : Dev nD) (t : Fin cfg0.N) (k : Fin 1000) (q : Fin 64) :
    (iblk0 V c 3 t : Vec Ideal S1000x64 .f32) (ix2 k q) = (V c main_v14 : S1000x64.Idx → Elt Ideal .f32) (ix2 k q) := by
  obtain ⟨-, -, -, -, -, -, e0, e1, -⟩ := idx_facts t
  unfold iblk0
  rw [View.read_apply]
  show V c main_v14 _ = V c main_v14 _
  congr 1
  funext a
  apply Fin.ext
  match a with
  | ⟨0, _⟩ => show win0_3.index t (0 : Fin 2) * 1000 + 1 * k.val = k.val; rw [e0]; omega
  | ⟨1, _⟩ => show win0_3.index t (1 : Fin 2) * 64 + 1 * q.val = q.val; rw [e1]; omega

/-- Row `p` of point `t`'s block of the norm column is row `1000 t + p` of the column. -/
theorem blk4_apply (c : Dev nD) (t : Fin cfg0.N) (p : Fin 1000) (r : Fin 50000) (hr : r.val = t.val * 1000 + p.val) :
    (iblk0 V c 4 t : Vec Ideal S1000x1 .f32) (ix2 p 0) = (V c main_v15 : S50000x1.Idx → Elt Ideal .f32) (ix2 r 0) := by
  obtain ⟨-, -, -, -, -, -, -, -, e0, e1, -⟩ := idx_facts t
  unfold iblk0
  rw [View.read_apply]
  show V c main_v15 _ = V c main_v15 _
  congr 1
  funext a
  apply Fin.ext
  match a with
  | ⟨0, _⟩ => show win0_4.index t (0 : Fin 2) * 1000 + 1 * p.val = r.val; rw [e0, hr]; omega
  | ⟨1, _⟩ => show win0_4.index t (1 : Fin 2) * 1 + 1 * (0 : Fin 1).val = (0 : Fin 1).val; rw [e1]; rfl

/-- What point `t` writes back is block `t` of `rows` of the arrays the pallas_call finds. -/
theorem flushed_eq (c : Dev nD) (t : Fin cfg0.N) :
    (dat0 V c).flushed 5 t = ((cfg0.win 5).blk t).view.read (Elt Ideal)
      (rows (V c main_arg0) (V c main_arg1) (V c main_v13) (V c main_v14) (V c main_v15)) := by
  show (cfg0.win 5).cut (grid0.coords t) ((dat0 V c).after 5 t) = _
  rw [after0_5]
  unfold out0_5
  rw [View.canon_unit_zero hz]
  simp only [View.ld_unit_zero (S := S1000x1000) hz, View.ld_unit_zero (S := S1000x64) hz, View.ld_unit_zero (S := S1000x1) hz]
  funext j
  obtain ⟨p, q, rfl⟩ : ∃ (p : Fin 1000) (q : Fin 64), j = ix2 p q := ⟨j 0, j 1, eq_ix2 j⟩
  obtain ⟨-, -, -, -, -, -, -, -, -, -, e50, e51⟩ := idx_facts t
  have hN : t.val < 50 := lt_of_lt_of_eq t.isLt N_0
  obtain ⟨r, hr⟩ : ∃ r : Fin 50000, r.val = t.val * 1000 + p.val := ⟨⟨t.val * 1000 + p.val, by have := p.isLt; omega⟩, rfl⟩
  have hemb : ((cfg0.win 5).blk t).view.emb (ix2 p q) = (ix2 r q : S50000x64.Idx) := funext fun a => Fin.ext (by
    match a with
    | ⟨0, _⟩ => show win0_5.index t (0 : Fin 2) * 1000 + 1 * p.val = r.val; rw [e50, hr]; omega
    | ⟨1, _⟩ => show win0_5.index t (1 : Fin 2) * 64 + 1 * q.val = q.val; rw [e51]; omega)
  show k0_pay1 (F := Ideal) (iblk0 V c 0 t) (iblk0 V c 1 t) (iblk0 V c 2 t) (iblk0 V c 3 t) (iblk0 V c 4 t) (ix2 p q)
    = rows (V c main_arg0) (V c main_arg1) (V c main_v13) (V c main_v14) (V c main_v15) (((cfg0.win 5).blk t).view.emb (ix2 p q))
  rw [hemb]
  refine (pay0_apply _ _ _ _ _ p q).trans ?_
  rw [rows_apply, blk4_apply V c t p r hr]
  refine congrArg (· * _) ?_
  refine congrArg₂ (· + ·) ?_ ?_
  · exact Finset.sum_congr rfl fun k _ => by rw [blk0_apply V c t p k r hr, blk2_apply V c t k q]
  · exact Finset.sum_congr rfl fun k _ => by rw [blk1_apply V c t p k r hr, blk3_apply V c t k q]

/-- An index of the output array is in point `t`'s block iff each coordinate is in the block's range. -/
theorem mem_blk (t : Fin cfg0.N) (i : S50000x64.Idx) :
    i ∈ ((cfg0.win 5).blk t).view.set ↔ ∀ a : Fin 2, win0_5.index t a * S1000x64.size a ≤ (i a).val ∧ (i a).val < win0_5.index t a * S1000x64.size a + S1000x64.size a := by
  show i ∈ ((View.whole main_v16).slice (win0_5.rect t)).set ↔ _
  rw [View.set_slice_whole, Rect.mem_set_unit]
  exact Iff.rfl

/-- The 50 blocks of 1000 rows cover the 50000 rows: row `r` is in the block of point `r / 1000`. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 50 := N_0
  obtain ⟨t, ht⟩ : ∃ t : Fin cfg0.N, t.val = (i 0).val / 1000 := ⟨⟨(i 0).val / 1000, by rw [hN]; omega⟩, rfl⟩
  obtain ⟨-, -, -, -, -, -, -, -, -, -, e50, e51⟩ := idx_facts t
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; rw [e50, ht]; omega
  | ⟨1, _⟩ => show win0_5.index t (1 : Fin 2) * 64 ≤ (i 1).val ∧ (i 1).val < win0_5.index t (1 : Fin 2) * 64 + 64; rw [e51]; omega

/-- The output array after the pallas_call. -/
theorem final (c : Dev nD) : (dat0 V c).arrAt 5 cfg0.N
    = rows (V c main_arg0) (V c main_arg1) (V c main_v13) (V c main_v14) (V c main_v15) :=
  (dat0 V c).arrAt_eq_of_cover 5 _ (fun t _ => flushed_eq V c t) cover

end Cert.KernelIdeal.Layer0

end
-- ==== Proof.Region1.lean ====
/-
  The second pallas_call, as one function of the arrays it finds.

  Its grid has 50 points; point `t` takes rows `1000 t … 1000 t + 999` of the layer-1 input `s` (64 features per
  node) and of the two feature arrays `xu`, `xs`, the two weight halves `wb`, `wg` and the two bias rows `bb`, `bg`
  whole, and writes rows `1000 t … 1000 t + 999` of the result. The body makes the two 64-deep products on the matrix
  unit into zero accumulators (narrowing to bf16 first: the identity on extended reals), adds each bias row to every
  row, and gates:

      out[r, j] = (Σ_{k < 64} s[r, k] · wb[k, j] + bb[0, j]) · xu[r, j]  +  (Σ_{k < 64} s[r, k] · wg[k, j] + bg[0, j]) · xs[r, j]

  Every row depends only on the same row of `s`, `xu`, `xs`, so block `t` of this one function is what point `t`
  writes, and the 50 blocks tile the 50000 rows.
-/
import proofs.«166413_j1649267442174_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat)

/-- The layer-1 matrix products' dimension numbers: rows of the left operand against columns of the right. -/
abbrev D1 := dot_S1000x64_S64x1000_S1000x1000_1_0_0_1_n_n

theorem lhs1_0 (i : S1000x1000.Idx) (q : D1.contr.Idx) : (D1.lhsIdx i q 0).val = (i 0).val := by
  unfold DotDims.lhsIdx
  rw [dif_neg (show ¬(0 : Fin S1000x64.rank) ∈ D1.lhsBatch by decide), dif_pos (show (0 : Fin S1000x64.rank) ∈ D1.lhsNonContracting by decide)]
  rfl
theorem lhs1_1 (i : S1000x1000.Idx) (q : D1.contr.Idx) : (D1.lhsIdx i q 1).val = (q ⟨0, by decide⟩).val :=
  D1.lhsIdx_val_of_single rfl i q
theorem rhs1_0 (i : S1000x1000.Idx) (q : D1.contr.Idx) : (D1.rhsIdx i q 0).val = (q ⟨0, by decide⟩).val :=
  D1.rhsIdx_val_of_single rfl i q
theorem rhs1_1 (i : S1000x1000.Idx) (q : D1.contr.Idx) : (D1.rhsIdx i q 1).val = (i 1).val := by
  unfold DotDims.rhsIdx
  rw [dif_neg (show ¬(1 : Fin S64x1000.rank) ∈ D1.rhsBatch by decide), dif_pos (show (1 : Fin S64x1000.rank) ∈ D1.rhsNonContracting by decide)]
  rfl

/-- The matrix unit's product into a zero accumulator, read at row `p`, column `q`: the sum over the 64 contracted
    positions of left `[p, k]` times right `[k, q]`. -/
theorem matmul1_apply (l : FVec Ideal S1000x64 .bf16) (r : FVec Ideal S64x1000 .bf16) (p : Fin 1000) (q : Fin 1000) :
    matmul D1 none l r (constant (F := Ideal) S1000x1000 .f32 0x00000000#32) (ix2 p q) = ∑ k : Fin 64, l (ix2 p k) * r (ix2 k q) := by
  show FloatOps.matmul D1 none l r (constant (F := Ideal) S1000x1000 .f32 0x00000000#32) (ix2 p q) = _
  rw [Ideal.matmul_constant_zero_apply, ← Equiv.sum_comp (contrEquiv1 D1 64 rfl rfl).symm]
  refine Finset.sum_congr rfl fun k _ => ?_
  have hk := contrEquiv1_symm_val D1 64 rfl rfl k
  have el : D1.lhsIdx (ix2 p q) ((contrEquiv1 D1 64 rfl rfl).symm k) = ix2 p k := funext fun a => Fin.ext (by
    match a with
    | ⟨0, _⟩ => exact lhs1_0 _ _
    | ⟨1, _⟩ => exact (lhs1_1 _ _).trans hk)
  have er : D1.rhsIdx (ix2 p q) ((contrEquiv1 D1 64 rfl rfl).symm k) = ix2 k q := funext fun a => Fin.ext (by
    match a with
    | ⟨0, _⟩ => exact (rhs1_0 _ _).trans hk
    | ⟨1, _⟩ => exact rhs1_1 _ _)
  rw [el, er]

/-- A bias row repeated down the 1000 rows of the block, read at row `p`, column `q`. -/
theorem bias1_apply (x : FVec Ideal S1x1000 .f32) (p : Fin 1000) (q : Fin 1000) :
    broadcastTo S1000x1000 (shapeCast S1x1000 x Facts₀.shapeCasts_S1x1000_S1x1000) Facts₀.broadcasts_S1x1000_S1000x1000 (ix2 p q) = x (ix2 0 q) := by
  rw [shapeCast_self]
  refine broadcastTo_apply x _ (ix2 p q) (ix2 0 q) fun a => ?_
  match a with
  | ⟨0, _⟩ => show (0 : Nat) = if (1 : Nat) = 1 then 0 else p.val; rw [if_pos rfl]
  | ⟨1, _⟩ => show q.val = if (1000 : Nat) = 1 then 0 else q.val; rw [if_neg (by decide)]

/-- What the body stores, read at row `p`, column `q` of the block, from the seven loaded blocks. -/
theorem pay1_apply (x0 : FVec Ideal S1000x64 .f32) (x1 x2 : FVec Ideal S64x1000 .f32) (x3 x4 : FVec Ideal S1x1000 .f32)
    (x5 x6 : FVec Ideal S1000x1000 .f32) (p : Fin 1000) (q : Fin 1000) :
    k1_pay1 (F := Ideal) x0 x1 x2 x3 x4 x5 x6 (ix2 p q)
      = (∑ k : Fin 64, x0 (ix2 p k) * x1 (ix2 k q) + x3 (ix2 0 q)) * x5 (ix2 p q)
        + (∑ k : Fin 64, x0 (ix2 p k) * x2 (ix2 k q) + x4 (ix2 0 q)) * x6 (ix2 p q) := by
  unfold k1_pay1
  rw [shapeCast_self x0, shapeCast_self x1, shapeCast_self x2]
  refine (addf_apply _ _ _).trans ?_
  refine congrArg₂ (· + ·) ?_ ?_
  · refine (mulf_apply _ _ _).trans ?_
    refine congrArg (· * x5 (ix2 p q)) ?_
    refine (addf_apply _ _ _).trans ?_
    rw [bias1_apply, matmul1_apply]
    rfl
  · refine (mulf_apply _ _ _).trans ?_
    refine congrArg (· * x6 (ix2 p q)) ?_
    refine (addf_apply _ _ _).trans ?_
    rw [bias1_apply, matmul1_apply]
    rfl

/-- The layer-1 projection and the gate as one function of the whole arrays. -/
def gate (s : S50000x64.Idx → EReal) (wb wg : S64x1000.Idx → EReal) (bb bg : S1x1000.Idx → EReal)
    (xu xs : S50000x1000.Idx → EReal) : S50000x1000.Idx → EReal :=
  fun i => (∑ k : Fin 64, s (ix2 (i 0) k) * wb (ix2 k (i 1)) + bb (ix2 0 (i 1))) * xu (ix2 (i 0) (i 1))
    + (∑ k : Fin 64, s (ix2 (i 0) k) * wg (ix2 k (i 1)) + bg (ix2 0 (i 1))) * xs (ix2 (i 0) (i 1))

/-- `gate` at row `r`, column `q`. -/
theorem gate_apply (s : S50000x64.Idx → EReal) (wb wg : S64x1000.Idx → EReal) (bb bg : S1x1000.Idx → EReal)
    (xu xs : S50000x1000.Idx → EReal) (r : Fin 50000) (q : Fin 1000) :
    gate s wb wg bb bg xu xs (ix2 r q)
      = (∑ k : Fin 64, s (ix2 r k) * wb (ix2 k q) + bb (ix2 0 q)) * xu (ix2 r q)
        + (∑ k : Fin 64, s (ix2 r k) * wg (ix2 k q) + bg (ix2 0 q)) * xs (ix2 r q) := rfl

/-! ## From the 50 blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The eight index maps over the grid: the row-blocked windows are at block row `t`, the weights and biases at block zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Row `p` of point `t`'s block of the layer-1 input is row `1000 t + p` of the array. -/
theorem blk0_apply (c : Dev nD) (t : Fin cfg1.N) (p : Fin 1000) (k : Fin 64) (r : Fin 50000) (hr : r.val = t.val * 1000 + p.val) :
    (iblk1 V c 0 t : Vec Ideal S1000x64 .f32) (ix2 p k) = (V c main_v49 : S50000x64.Idx → Elt Ideal .f32) (ix2 r k) := by
  obtain ⟨e0, e1, -⟩ := idx_facts t
  unfold iblk1
  rw [View.read_apply]
  show V c main_v49 _ = V c main_v49 _
  congr 1
  funext a
  apply Fin.ext
  match a with
  | ⟨0, _⟩ => show win1_0.index t (0 : Fin 2) * 1000 + 1 * p.val = r.val; rw [e0, hr]; omega
  | ⟨1, _⟩ => show win1_0.index t (1 : Fin 2) * 64 + 1 * k.val = k.val; rw [e1]; omega

/-- Every point's block of the first weight half is the whole half. -/
theorem blk1_apply (c : Dev nD) (t : Fin cfg1.N) (k : Fin 64) (q : Fin 1000) :
    (iblk1 V c 1 t : Vec Ideal S64x1000 .f32) (ix2 k q) = (V c main_v50 : S64x1000.Idx → Elt Ideal .f32) (ix2 k q) := by
  obtain ⟨-, -, e0, e1, -⟩ := idx_facts t
  unfold iblk1
  rw [View.read_apply]
  show V c main_v50 _ = V c main_v50 _
  congr 1
  funext a
  apply Fin.ext
  match a with
  | ⟨0, _⟩ => show win1_1.index t (0 : Fin 2) * 64 + 1 * k.val = k.val; rw [e0]; omega
  | ⟨1, _⟩ => show win1_1.index t (1 : Fin 2) * 1000 + 1 * q.val = q.val; rw [e1]; omega

/-- The same for the second weight half. -/
theorem blk2_apply (c : Dev nD) (t : Fin cfg1.N) (k : Fin 64) (q : Fin 1000) :
    (iblk1 V c 2 t : Vec Ideal S64x1000 .f32) (ix2 k q) = (V c main_v51 : S64x1000.Idx → Elt Ideal .f32) (ix2 k q) := by
  obtain ⟨-, -, -, -, e0, e1, -⟩ := idx_facts t
  unfold iblk1
  rw [View.read_apply]
  show V c main_v51 _ = V c main_v51 _
  congr 1
  funext a
  apply Fin.ext
  match a with
  | ⟨0, _⟩ => show win1_2.index t (0 : Fin 2) * 64 + 1 * k.val = k.val; rw [e0]; omega
  | ⟨1, _⟩ => show win1_2.index t (1 : Fin 2) * 1000 + 1 * q.val = q.val; rw [e1]; omega

/-- Every point's block of the first bias row is the whole row. -/
theorem blk3_apply (c : Dev nD) (t : Fin cfg1.N) (q : Fin 1000) :
    (iblk1 V c 3 t : Vec Ideal S1x1000 .f32) (ix2 0 q) = (V c main_v53 : S1x1000.Idx → Elt Ideal .f32) (ix2 0 q) := by
  obtain ⟨-, -, -, -, -, -, e0, e1, -⟩ := idx_facts t
  unfold iblk1
  rw [View.read_apply]
  show V c main_v53 _ = V c main_v53 _
  congr 1
  funext a
  apply Fin.ext
  match a with
  | ⟨0, _⟩ => show win1_3.index t (0 : Fin 2) * 1 + 1 * (0 : Fin 1).val = (0 : Fin 1).val; rw [e0]; rfl
  | ⟨1, _⟩ => show win1_3.index t (1 : Fin 2) * 1000 + 1 * q.val = q.val; rw [e1]; omega

/-- The same for the second bias row. -/
theorem blk4_apply (c : Dev nD) (t : Fin cfg1.N) (q : Fin 1000) :
    (iblk1 V c 4 t : Vec Ideal S1x1000 .f32) (ix2 0 q) = (V c main_v55 : S1x1000.Idx → Elt Ideal .f32) (ix2 0 q) := by
  obtain ⟨-, -, -, -, -, -, -, -, e0, e1, -⟩ := idx_facts t
  unfold iblk1
  rw [View.read_apply]
  show V c main_v55 _ = V c main_v55 _
  congr 1
  funext a
  apply Fin.ext
  match a with
  | ⟨0, _⟩ => show win1_4.index t (0 : Fin 2) * 1 + 1 * (0 : Fin 1).val = (0 : Fin 1).val; rw [e0]; rfl
  | ⟨1, _⟩ => show win1_4.index t (1 : Fin 2) * 1000 + 1 * q.val = q.val; rw [e1]; omega

/-- Row `p` of point `t`'s block of the first feature array is row `1000 t + p` of the array. -/
theorem blk5_apply (c : Dev nD) (t : Fin cfg1.N) (p q : Fin 1000) (r : Fin 50000) (hr : r.val = t.val * 1000 + p.val) :
    (iblk1 V c 5 t : Vec Ideal S1000x1000 .f32) (ix2 p q) = (V c main_arg0 : S50000x1000.Idx → Elt Ideal .f32) (ix2 r q) := by
  obtain ⟨-, -, -, -, -, -, -, -, -, -, e0, e1, -⟩ := idx_facts t
  unfold iblk1
  rw [View.read_apply]
  show V c main_arg0 _ = V c main_arg0 _
  congr 1
  funext a
  apply Fin.ext
  match a with
  | ⟨0, _⟩ => show win1_5.index t (0 : Fin 2) * 1000 + 1 * p.val = r.val; rw [e0, hr]; omega
  | ⟨1, _⟩ => show win1_5.index t (1 : Fin 2) * 1000 + 1 * q.val = q.val; rw [e1]; omega

/-- The same for the second feature array. -/
theorem blk6_apply (c : Dev nD) (t : Fin cfg1.N) (p q : Fin 1000) (r : Fin 50000) (hr : r.val = t.val * 1000 + p.val) :
    (iblk1 V c 6 t : Vec Ideal S1000x1000 .f32) (ix2 p q) = (V c main_arg1 : S50000x1000.Idx → Elt Ideal .f32) (ix2 r q) := by
  obtain ⟨-, -, -, -, -, -, -, -, -, -, -, -, e0, e1, -⟩ := idx_facts t
  unfold iblk1
  rw [View.read_apply]
  show V c main_arg1 _ = V c main_arg1 _
  congr 1
  funext a
  apply Fin.ext
  match a with
  | ⟨0, _⟩ => show win1_6.index t (0 : Fin 2) * 1000 + 1 * p.val = r.val; rw [e0, hr]; omega
  | ⟨1, _⟩ => show win1_6.index t (1 : Fin 2) * 1000 + 1 * q.val = q.val; rw [e1]; omega

/-- What point `t` writes back is block `t` of `gate` of the arrays the pallas_call finds. -/
theorem flushed_eq (c : Dev nD) (t : Fin cfg1.N) :
    (dat1 V c).flushed 7 t = ((cfg1.win 7).blk t).view.read (Elt Ideal)
      (gate (V c main_v49) (V c main_v50) (V c main_v51) (V c main_v53) (V c main_v55) (V c main_arg0) (V c main_arg1)) := by
  show (cfg1.win 7).cut (grid1.coords t) ((dat1 V c).after 7 t) = _
  rw [after1_7]
  unfold out1_7
  rw [View.canon_unit_zero hz]
  simp only [View.ld_unit_zero (S := S1000x1000) hz, View.ld_unit_zero (S := S1000x64) hz, View.ld_unit_zero (S := S64x1000) hz,
    View.ld_unit_zero (S := S1x1000) hz]
  funext j
  obtain ⟨p, q, rfl⟩ : ∃ (p : Fin 1000) (q : Fin 1000), j = ix2 p q := ⟨j 0, j 1, eq_ix2 j⟩
  obtain ⟨-, -, -, -, -, -, -, -, -, -, -, -, -, -, e70, e71⟩ := idx_facts t
  have hN : t.val < 50 := lt_of_lt_of_eq t.isLt N_1
  obtain ⟨r, hr⟩ : ∃ r : Fin 50000, r.val = t.val * 1000 + p.val := ⟨⟨t.val * 1000 + p.val, by have := p.isLt; omega⟩, rfl⟩
  have hemb : ((cfg1.win 7).blk t).view.emb (ix2 p q) = (ix2 r q : S50000x1000.Idx) := funext fun a => Fin.ext (by
    match a with
    | ⟨0, _⟩ => show win1_7.index t (0 : Fin 2) * 1000 + 1 * p.val = r.val; rw [e70, hr]; omega
    | ⟨1, _⟩ => show win1_7.index t (1 : Fin 2) * 1000 + 1 * q.val = q.val; rw [e71]; omega)
  show k1_pay1 (F := Ideal) (iblk1 V c 0 t) (iblk1 V c 1 t) (iblk1 V c 2 t) (iblk1 V c 3 t) (iblk1 V c 4 t) (iblk1 V c 5 t) (iblk1 V c 6 t) (ix2 p q)
    = gate (V c main_v49) (V c main_v50) (V c main_v51) (V c main_v53) (V c main_v55) (V c main_arg0) (V c main_arg1)
        (((cfg1.win 7).blk t).view.emb (ix2 p q))
  rw [hemb]
  refine (pay1_apply _ _ _ _ _ _ _ p q).trans ?_
  rw [gate_apply, blk3_apply V c t q, blk4_apply V c t q, blk5_apply V c t p q r hr, blk6_apply V c t p q r hr]
  refine congrArg₂ (· + ·) ?_ ?_
  · refine congrArg (· * _) ?_
    refine congrArg (· + _) ?_
    exact Finset.sum_congr rfl fun k _ => by rw [blk0_apply V c t p k r hr, blk1_apply V c t k q]
  · refine congrArg (· * _) ?_
    refine congrArg (· + _) ?_
    exact Finset.sum_congr rfl fun k _ => by rw [blk0_apply V c t p k r hr, blk2_apply V c t k q]

/-- An index of the result array is in point `t`'s block iff each coordinate is in the block's range. -/
theorem mem_blk (t : Fin cfg1.N) (i : S50000x1000.Idx) :
    i ∈ ((cfg1.win 7).blk t).view.set ↔ ∀ a : Fin 2, win1_7.index t a * S1000x1000.size a ≤ (i a).val ∧ (i a).val < win1_7.index t a * S1000x1000.size a + S1000x1000.size a := by
  show i ∈ ((View.whole main_v56).slice (win1_7.rect t)).set ↔ _
  rw [View.set_slice_whole, Rect.mem_set_unit]
  exact Iff.rfl

/-- The 50 blocks of 1000 rows cover the 50000 rows: row `r` is in the block of point `r / 1000`. -/
theorem cover (i : S50000x1000.Idx) : ∃ t : Fin cfg1.N, (cfg1.win 7).flush t = true ∧ i ∈ ((cfg1.win 7).blk t).view.set := by
  have hi0 : (i 0).val < 50000 := (i 0).isLt
  have hi1 : (i 1).val < 1000 := (i 1).isLt
  have hN : cfg1.N = 50 := N_1
  obtain ⟨t, ht⟩ : ∃ t : Fin cfg1.N, t.val = (i 0).val / 1000 := ⟨⟨(i 0).val / 1000, by rw [hN]; omega⟩, rfl⟩
  obtain ⟨-, -, -, -, -, -, -, -, -, -, -, -, -, -, e70, e71⟩ := idx_facts t
  refine ⟨t, flush1_7 t, ?_⟩
  rw [mem_blk]
  intro a
  match a with
  | ⟨0, _⟩ => show win1_7.index t (0 : Fin 2) * 1000 ≤ (i 0).val ∧ (i 0).val < win1_7.index t (0 : Fin 2) * 1000 + 1000; rw [e70, ht]; omega
  | ⟨1, _⟩ => show win1_7.index t (1 : Fin 2) * 1000 ≤ (i 1).val ∧ (i 1).val < win1_7.index t (1 : Fin 2) * 1000 + 1000; rw [e71]; omega

/-- The result array after the pallas_call. -/
theorem final (c : Dev nD) : (dat1 V c).arrAt 7 cfg1.N
    = gate (V c main_v49) (V c main_v50) (V c main_v51) (V c main_v53) (V c main_v55) (V c main_arg0) (V c main_arg1) :=
  (dat1 V c).arrAt_eq_of_cover 7 _ (fun t _ => flushed_eq V c t) cover

end Cert.KernelIdeal.Layer1

end
-- ==== Proof.Mid.lean ====
/-
  The part of the network that both programs run on the host, in the same words: from the layer-0 features
  `h` (one row of 64 per node, already scaled by the source norm) to the layer-1 input of the last projection.

  With `A` the edge aggregation (row `d` of `A h` is the sum of the rows `h[src e]` over the edges `e` with
  `dst e = d`; a negative source index counts from the end), the chain is

      mid h = A (relu (A h · nd + b0) · ns) · nd

  where `ns`, `nd` are the per-node source and destination norms, broadcast along the 64 features, and `b0` the
  layer-0 bias broadcast along the nodes. Neither aggregation is ever opened: both programs apply the same gather and
  the same scatter-add to their `h`, so it is enough that the two `h` agree.
-/
import proofs.«166413_j1649267442174_2_alg».proof.Proof.Gen.KernelIdeal.Frame
import proofs.«166413_j1649267442174_2_alg».proof.Proof.Gen.ReferenceIdeal.Read

set_option maxRecDepth 16384

noncomputable section

namespace Cert.ReferenceIdeal.Mid

open Cert.ReferenceIdeal Cert.ReferenceIdeal.Gen Idealize.ShloMosaic

variable {F : FTy → Type} [FloatOps F]

/-- The source indices as the gather takes them: a negative index has the node count added, and the vector becomes
    a column of one-element index vectors. -/
def wrapIdx (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- The edge aggregation: gather the source rows, add each into its destination row, from zero. -/
def aggregate (h : (⟨S50000x64, .f32⟩ : BufTy).Contents (Elt F)) (src dst : (⟨S1600000, .i32⟩ : BufTy).Contents (Elt F)) :
    (⟨S50000x64, .f32⟩ : BufTy).Contents (Elt F) :=
  Host.scatterAdd scatter_S50000x64_S1600000x1_S1600000x64_1_0_0_1
    (broadcastInDim S50000x64 ![] bcast_S_S50000x64 (constant (F := F) S_ .f32 0x00000000#32))
    (broadcastInDim S1600000x1 ![0] bcast_S1600000_S1600000x1_0 dst)
    (Host.gather gather_S50000x64_S1600000x1_S1600000x64_1_0_n_n_0_1_164 h (wrapIdx src))

/-- A per-node factor repeated along the 64 features. -/
def alongFeatures (v : (⟨S50000, .f32⟩ : BufTy).Contents (Elt F)) : (⟨S50000x64, .f32⟩ : BufTy).Contents (Elt F) :=
  broadcastInDim S50000x64 ![0, 1] bcast_S50000x1_S50000x64_0_1 (broadcastInDim S50000x1 ![0] bcast_S50000_S50000x1_0 v)

/-- From the scaled layer-0 features to the input of the layer-1 projection. -/
def mid (h : (⟨S50000x64, .f32⟩ : BufTy).Contents (Elt F)) (ns nd : (⟨S50000, .f32⟩ : BufTy).Contents (Elt F))
    (b0 : (⟨S64, .f32⟩ : BufTy).Contents (Elt F)) (src dst : (⟨S1600000, .i32⟩ : BufTy).Contents (Elt F)) :
    (⟨S50000x64, .f32⟩ : BufTy).Contents (Elt F) :=
  mulf (aggregate
      (mulf (maximumf
          (addf (mulf (aggregate h src dst) (alongFeatures nd))
            (broadcastInDim S50000x64 ![0, 1] bcast_S1x64_S50000x64_0_1 (broadcastInDim S1x64 ![1] bcast_S64_S1x64_1 b0)))
          (broadcastInDim S50000x64 ![] bcast_S_S50000x64 (constant (F := F) S_ .f32 0x00000000#32)))
        (alongFeatures ns))
      src dst)
    (alongFeatures nd)

/-- The reference's input of its last matrix product is `mid` of its own layer-0 features and norms. -/
theorem ref_mid (x0 x1 : (⟨S50000x1000, .f32⟩ : BufTy).Contents (Elt F)) (x2 : (⟨S2000x64, .f32⟩ : BufTy).Contents (Elt F))
    (x3 : (⟨S64, .f32⟩ : BufTy).Contents (Elt F)) (x6 x7 : (⟨S1600000, .i32⟩ : BufTy).Contents (Elt F)) :
    Read.val_main_v50 (F := F) x0 x1 x2 x3 x6 x7
      = mid (Read.val_main_v17 (F := F) x0 x1 x2 x6) (Read.val_main_v9 (F := F) x6) (Read.val_main_v12 (F := F) x7) x3 x6 x7 := rfl

end Cert.ReferenceIdeal.Mid

namespace Cert.KernelIdeal.Mid

open Cert.KernelIdeal Cert.KernelIdeal.Gen Idealize.ShloMosaic Idealize.ShloMosaic.StableHlo

variable {F : FTy → Type} [FloatOps F]

/-- The kernel program's host operations between its two pallas_calls, run from any contents `V`, leave in the
    buffer the second pallas_call reads its rows from exactly `mid` of the first pallas_call's output array, the two
    norm vectors, the bias and the edge lists as `V` has them. -/
theorem between_rows (V : Valuation τ sig (Elt F)) :
    after (hostOps1 ++ hostOps1_1 ++ hostOps1_2) V (Proc.devRef .tc main_v49)
      = Cert.ReferenceIdeal.Mid.mid (F := F) (V (Proc.devRef .tc main_v16)) (V (Proc.devRef .tc main_v9)) (V (Proc.devRef .tc main_v12))
          (V (Proc.devRef .tc main_arg3)) (V (Proc.devRef .tc main_arg6)) (V (Proc.devRef .tc main_arg7)) := by
  simp only [hostOps1, hostOps1_1, hostOps1_2, List.cons_append, List.nil_append]
  after_results_simp
  rfl

end Cert.KernelIdeal.Mid

end
-- ==== Proof.Entry.lean ====
/-
  What the two pallas_calls find in their input arrays.

  Before the first one the host slices the layer-0 weight into its two halves (rows 0…999 and 1000…1999), computes the
  source and destination norms from the edge lists, and reshapes the source norm into a column. Between the two it
  runs the shared middle chain (`mid`) on the first pallas_call's output, slices the layer-1 weight into its two
  column halves and the layer-1 bias into its two halves, each reshaped into a row. The feature arrays and the edge
  lists are written by nobody. Each fact is read off the fold of host operations from ANY starting contents, then
  taken at the launch memory.
-/
import proofs.«166413_j1649267442174_2_alg».proof.Proof.Mid

set_option maxRecDepth 16384

noncomputable section

namespace Cert.KernelIdeal.Entry

open Cert.KernelIdeal Cert.KernelIdeal.Gen Idealize.ShloMosaic Idealize.ShloMosaic.TcCoe Idealize.ShloMosaic.StableHlo Idealize.SL.Sem

variable {F : FTy → Type} [FloatOps F]

/-! ## The operations before the first pallas_call, from any contents -/

section Before
variable (V : Valuation τ sig (Elt F))

theorem before_arg0 : after hostOps0 V (Proc.devRef .tc main_arg0) = V (Proc.devRef .tc main_arg0) := by
  simp only [hostOps0]; after_results_simp <;> rfl
theorem before_arg1 : after hostOps0 V (Proc.devRef .tc main_arg1) = V (Proc.devRef .tc main_arg1) := by
  simp only [hostOps0]; after_results_simp <;> rfl
theorem before_arg3 : after hostOps0 V (Proc.devRef .tc main_arg3) = V (Proc.devRef .tc main_arg3) := by
  simp only [hostOps0]; after_results_simp <;> rfl
theorem before_arg4 : after hostOps0 V (Proc.devRef .tc main_arg4) = V (Proc.devRef .tc main_arg4) := by
  simp only [hostOps0]; after_results_simp <;> rfl
theorem before_arg5 : after hostOps0 V (Proc.devRef .tc main_arg5) = V (Proc.devRef .tc main_arg5) := by
  simp only [hostOps0]; after_results_simp <;> rfl
theorem before_arg6 : after hostOps0 V (Proc.devRef .tc main_arg6) = V (Proc.devRef .tc main_arg6) := by
  simp only [hostOps0]; after_results_simp <;> rfl
theorem before_arg7 : after hostOps0 V (Proc.devRef .tc main_arg7) = V (Proc.devRef .tc main_arg7) := by
  simp only [hostOps0]; after_results_simp <;> rfl

/-- The first half of the layer-0 weight: its rows 0…999. -/
theorem before_wu : after hostOps0 V (Proc.devRef .tc main_v13)
    = extractStridedSlice S1000x64 ![0, 0] (V (Proc.devRef .tc main_arg2)) Facts₀.slices_S2000x64_S1000x64_0_0 := by
  simp only [hostOps0]; after_results_simp <;> rfl
/-- The second half: its rows 1000…1999. -/
theorem before_ws : after hostOps0 V (Proc.devRef .tc main_v14)
    = extractStridedSlice S1000x64 ![1000, 0] (V (Proc.devRef .tc main_arg2)) Facts₀.slices_S2000x64_S1000x64_1000_0 := by
  simp only [hostOps0]; after_results_simp <;> rfl
/-- The source norm is the reference's, of the same edge list. -/
theorem before_ns : after hostOps0 V (Proc.devRef .tc main_v9)
    = Cert.ReferenceIdeal.Read.val_main_v9 (F := F) (V (Proc.devRef .tc main_arg6)) := by
  simp only [hostOps0]; after_results_simp <;> rfl
/-- The destination norm is the reference's, of the same edge list. -/
theorem before_nd : after hostOps0 V (Proc.devRef .tc main_v12)
    = Cert.ReferenceIdeal.Read.val_main_v12 (F := F) (V (Proc.devRef .tc main_arg7)) := by
  simp only [hostOps0]; after_results_simp <;> rfl
/-- The source norm as a column. -/
theorem before_nscol : after hostOps0 V (Proc.devRef .tc main_v15)
    = shapeCast S50000x1 (Cert.ReferenceIdeal.Read.val_main_v9 (F := F) (V (Proc.devRef .tc main_arg6))) Facts₀.shapeCasts_S50000_S50000x1 := by
  simp only [hostOps0]; after_results_simp <;> rfl

end Before

/-! ## The operations between the two pallas_calls, from any contents -/

section Between
variable (V : Valuation τ sig (Elt F))

/-- The three stretches between the pallas_calls as one line. -/
abbrev between : List (HloOp τ sig (Elt F)) := hostOps1 ++ (hostOps1_1 ++ hostOps1_2)

theorem between_rows : after between V (Proc.devRef .tc main_v49)
    = Cert.ReferenceIdeal.Mid.mid (F := F) (V (Proc.devRef .tc main_v16)) (V (Proc.devRef .tc main_v9)) (V (Proc.devRef .tc main_v12))
        (V (Proc.devRef .tc main_arg3)) (V (Proc.devRef .tc main_arg6)) (V (Proc.devRef .tc main_arg7)) := by
  simp only [between, hostOps1, hostOps1_1, hostOps1_2, List.cons_append, List.nil_append]
  after_results_simp <;> rfl
theorem between_arg0 : after between V (Proc.devRef .tc main_arg0) = V (Proc.devRef .tc main_arg0) := by
  simp only [between, hostOps1, hostOps1_1, hostOps1_2, List.cons_append, List.nil_append]
  after_results_simp <;> rfl
theorem between_arg1 : after between V (Proc.devRef .tc main_arg1) = V (Proc.devRef .tc main_arg1) := by
  simp only [between, hostOps1, hostOps1_1, hostOps1_2, List.cons_append, List.nil_append]
  after_results_simp <;> rfl
/-- The first half of the layer-1 weight: its columns 0…999. -/
theorem between_wb : after between V (Proc.devRef .tc main_v50)
    = extractStridedSlice S64x1000 ![0, 0] (V (Proc.devRef .tc main_arg4)) Facts₀.slices_S64x2000_S64x1000_0_0 := by
  simp only [between, hostOps1, hostOps1_1, hostOps1_2, List.cons_append, List.nil_append]
  after_results_simp <;> rfl
/-- The second half: its columns 1000…1999. -/
theorem between_wg : after between V (Proc.devRef .tc main_v51)
    = extractStridedSlice S64x1000 ![0, 1000] (V (Proc.devRef .tc main_arg4)) Facts₀.slices_S64x2000_S64x1000_0_1000 := by
  simp only [between, hostOps1, hostOps1_1, hostOps1_2, List.cons_append, List.nil_append]
  after_results_simp <;> rfl
/-- The first half of the layer-1 bias, as a row. -/
theorem between_bb : after between V (Proc.devRef .tc main_v53)
    = shapeCast S1x1000 (extractStridedSlice S1000 ![0] (V (Proc.devRef .tc main_arg5)) Facts₀.slices_S2000_S1000_0) Facts₀.shapeCasts_S1000_S1x1000 := by
  simp only [between, hostOps1, hostOps1_1, hostOps1_2, List.cons_append, List.nil_append]
  after_results_simp <;> rfl
/-- The second half, as a row. -/
theorem between_bg : after between V (Proc.devRef .tc main_v55)
    = shapeCast S1x1000 (extractStridedSlice S1000 ![1000] (V (Proc.devRef .tc main_arg5)) Facts₀.slices_S2000_S1000_1000) Facts₀.shapeCasts_S1000_S1x1000 := by
  simp only [between, hostOps1, hostOps1_1, hostOps1_2, List.cons_append, List.nil_append]
  after_results_simp <;> rfl

end Between

/-! ## At the launch memory -/

variable (m : (ℓ : Loc nD τ sig) → Buf (Elt F) ℓ) (ρ : Dev nD → PrngReg) (c : Dev nD)

/-- The contents the second pallas_call is entered from are the one-line fold from the first one's exit contents. -/
theorem W5_eq : W5 m ρ c = after between (W2 m ρ c) := by
  show after hostOps1_2 (after hostOps1_1 (after hostOps1 (W2 m ρ c))) = _
  rw [← after_append, ← after_append]

/-- A buffer that is none of the first pallas_call's arrays leaves it as it entered. -/
theorem W2_v9 : W2 m ρ c (Proc.devRef .tc main_v9) = W1 m ρ c (Proc.devRef .tc main_v9) := W2_of_ne m ρ c main_v9 (by decide)
theorem W2_v12 : W2 m ρ c (Proc.devRef .tc main_v12) = W1 m ρ c (Proc.devRef .tc main_v12) := W2_of_ne m ρ c main_v12 (by decide)
theorem W2_arg3 : W2 m ρ c (Proc.devRef .tc main_arg3) = W1 m ρ c (Proc.devRef .tc main_arg3) := W2_of_ne m ρ c main_arg3 (by decide)
theorem W2_arg4 : W2 m ρ c (Proc.devRef .tc main_arg4) = W1 m ρ c (Proc.devRef .tc main_arg4) := W2_of_ne m ρ c main_arg4 (by decide)
theorem W2_arg5 : W2 m ρ c (Proc.devRef .tc main_arg5) = W1 m ρ c (Proc.devRef .tc main_arg5) := W2_of_ne m ρ c main_arg5 (by decide)
theorem W2_arg6 : W2 m ρ c (Proc.devRef .tc main_arg6) = W1 m ρ c (Proc.devRef .tc main_arg6) := W2_of_ne m ρ c main_arg6 (by decide)
theorem W2_arg7 : W2 m ρ c (Proc.devRef .tc main_arg7) = W1 m ρ c (Proc.devRef .tc main_arg7) := W2_of_ne m ρ c main_arg7 (by decide)
/-- An input array of the first pallas_call leaves it as it entered. -/
theorem W2_arg0 : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem W2_arg1 : W2 m ρ c (Proc.devRef .tc main_arg1) = W1 m ρ c (Proc.devRef .tc main_arg1) :=
  (W2_arr m ρ c 1).trans (((dat0 (V1 m ρ) c).arrAt_in 1 rfl _).trans (A_eq0 (V1 m ρ) c 1))

end Cert.KernelIdeal.Entry

end
-- ==== Proof.KernelValue.lean ====
/-
  The kernel program's result as one function of its arguments.

  From the launch memory: the first pallas_call finds the two feature arrays as launched, the two halves of the
  layer-0 weight and the source-norm column, and leaves `rows` of them (the scaled layer-0 features `h0`); the host
  then runs `mid` on `h0`; the second pallas_call finds that, the two column halves of the layer-1 weight, the two
  halves of the layer-1 bias as rows, and the feature arrays as launched, and leaves `gate` of them in the result.
-/
import proofs.«166413_j1649267442174_2_alg».proof.Proof.KernelRun
import proofs.«166413_j1649267442174_2_alg».proof.Proof.Region0
import proofs.«166413_j1649267442174_2_alg».proof.Proof.Region1
import proofs.«166413_j1649267442174_2_alg».proof.Proof.Entry

set_option maxRecDepth 16384

noncomputable section

namespace Cert.KernelIdeal.Whole

open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## What the host leaves before the first pallas_call, at the launch memory -/

theorem W1_arg0 : W1 m ρ c (Proc.devRef .tc main_arg0) = m ((c : Thread nD τ).loc main_arg0) := Entry.before_arg0 (W0 m ρ c)
theorem W1_arg1 : W1 m ρ c (Proc.devRef .tc main_arg1) = m ((c : Thread nD τ).loc main_arg1) := Entry.before_arg1 (W0 m ρ c)
theorem W1_arg3 : W1 m ρ c (Proc.devRef .tc main_arg3) = m ((c : Thread nD τ).loc main_arg3) := Entry.before_arg3 (W0 m ρ c)
theorem W1_arg4 : W1 m ρ c (Proc.devRef .tc main_arg4) = m ((c : Thread nD τ).loc main_arg4) := Entry.before_arg4 (W0 m ρ c)
theorem W1_arg5 : W1 m ρ c (Proc.devRef .tc main_arg5) = m ((c : Thread nD τ).loc main_arg5) := Entry.before_arg5 (W0 m ρ c)
theorem W1_arg6 : W1 m ρ c (Proc.devRef .tc main_arg6) = m ((c : Thread nD τ).loc main_arg6) := Entry.before_arg6 (W0 m ρ c)
theorem W1_arg7 : W1 m ρ c (Proc.devRef .tc main_arg7) = m ((c : Thread nD τ).loc main_arg7) := Entry.before_arg7 (W0 m ρ c)
theorem W1_ns : W1 m ρ c (Proc.devRef .tc main_v9)
    = Cert.ReferenceIdeal.Read.val_main_v9 (F := Ideal) (m ((c : Thread nD τ).loc main_arg6)) := Entry.before_ns (W0 m ρ c)
theorem W1_nd : W1 m ρ c (Proc.devRef .tc main_v12)
    = Cert.ReferenceIdeal.Read.val_main_v12 (F := Ideal) (m ((c : Thread nD τ).loc main_arg7)) := Entry.before_nd (W0 m ρ c)

theorem V1_arg0 : V1 m ρ c main_arg0 = m ((c : Thread nD τ).loc main_arg0) := Entry.before_arg0 (W0 m ρ c)
theorem V1_arg1 : V1 m ρ c main_arg1 = m ((c : Thread nD τ).loc main_arg1) := Entry.before_arg1 (W0 m ρ c)
theorem V1_wu : V1 m ρ c main_v13
    = extractStridedSlice S1000x64 ![0, 0] (m ((c : Thread nD τ).loc main_arg2)) Facts₀.slices_S2000x64_S1000x64_0_0 := Entry.before_wu (W0 m ρ c)
theorem V1_ws : V1 m ρ c main_v14
    = extractStridedSlice S1000x64 ![1000, 0] (m ((c : Thread nD τ).loc main_arg2)) Facts₀.slices_S2000x64_S1000x64_1000_0 := Entry.before_ws (W0 m ρ c)
theorem V1_nscol : V1 m ρ c main_v15
    = shapeCast S50000x1 (Cert.ReferenceIdeal.Read.val_main_v9 (F := Ideal) (m ((c : Thread nD τ).loc main_arg6))) Facts₀.shapeCasts_S50000_S50000x1 :=
  Entry.before_nscol (W0 m ρ c)

/-! ## The first pallas_call's output -/

/-- The scaled layer-0 features, from the launch memory. -/
def h0 : S50000x64.Idx → EReal :=
  Layer0.rows (m ((c : Thread nD τ).loc main_arg0)) (m ((c : Thread nD τ).loc main_arg1))
    (extractStridedSlice S1000x64 ![0, 0] (m ((c : Thread nD τ).loc main_arg2)) Facts₀.slices_S2000x64_S1000x64_0_0)
    (extractStridedSlice S1000x64 ![1000, 0] (m ((c : Thread nD τ).loc main_arg2)) Facts₀.slices_S2000x64_S1000x64_1000_0)
    (shapeCast S50000x1 (Cert.ReferenceIdeal.Read.val_main_v9 (F := Ideal) (m ((c : Thread nD τ).loc main_arg6))) Facts₀.shapeCasts_S50000_S50000x1)

theorem first_out : W2 m ρ c (Proc.devRef .tc main_v16) = h0 m c := by
  refine (W2_arr m ρ c 5).trans ((Layer0.final (V1 m ρ) c).trans ?_)
  unfold h0
  rw [V1_arg0, V1_arg1, V1_wu, V1_ws, V1_nscol]

/-! ## What the second pallas_call finds -/

/-- The layer-1 input rows, from the launch memory. -/
def s1 : S50000x64.Idx → EReal :=
  Cert.ReferenceIdeal.Mid.mid (F := Ideal) (h0 m c)
    (Cert.ReferenceIdeal.Read.val_main_v9 (F := Ideal) (m ((c : Thread nD τ).loc main_arg6)))
    (Cert.ReferenceIdeal.Read.val_main_v12 (F := Ideal) (m ((c : Thread nD τ).loc main_arg7)))
    (m ((c : Thread nD τ).loc main_arg3)) (m ((c : Thread nD τ).loc main_arg6)) (m ((c : Thread nD τ).loc main_arg7))

theorem V5_rows : V5 m ρ c main_v49 = s1 m c := by
  show W5 m ρ c (Proc.devRef .tc main_v49) = _
  unfold s1
  rw [Entry.W5_eq, Entry.between_rows, first_out, Entry.W2_v9, Entry.W2_v12, Entry.W2_arg3, Entry.W2_arg6, Entry.W2_arg7,
    W1_ns, W1_nd, W1_arg3, W1_arg6, W1_arg7]
theorem V5_wb : V5 m ρ c main_v50
    = extractStridedSlice S64x1000 ![0, 0] (m ((c : Thread nD τ).loc main_arg4)) Facts₀.slices_S64x2000_S64x1000_0_0 := by
  show W5 m ρ c (Proc.devRef .tc main_v50) = _
  rw [Entry.W5_eq, Entry.between_wb, Entry.W2_arg4, W1_arg4]
theorem V5_wg : V5 m ρ c main_v51
    = extractStridedSlice S64x1000 ![0, 1000] (m ((c : Thread nD τ).loc main_arg4)) Facts₀.slices_S64x2000_S64x1000_0_1000 := by
  show W5 m ρ c (Proc.devRef .tc main_v51) = _
  rw [Entry.W5_eq, Entry.between_wg, Entry.W2_arg4, W1_arg4]
theorem V5_bb : V5 m ρ c main_v53
    = shapeCast S1x1000 (extractStridedSlice S1000 ![0] (m ((c : Thread nD τ).loc main_arg5)) Facts₀.slices_S2000_S1000_0) Facts₀.shapeCasts_S1000_S1x1000 := by
  show W5 m ρ c (Proc.devRef .tc main_v53) = _
  rw [Entry.W5_eq, Entry.between_bb, Entry.W2_arg5, W1_arg5]
theorem V5_bg : V5 m ρ c main_v55
    = shapeCast S1x1000 (extractStridedSlice S1000 ![1000] (m ((c : Thread nD τ).loc main_arg5)) Facts₀.slices_S2000_S1000_1000) Facts₀.shapeCasts_S1000_S1x1000 := by
  show W5 m ρ c (Proc.devRef .tc main_v55) = _
  rw [Entry.W5_eq, Entry.between_bg, Entry.W2_arg5, W1_arg5]
theorem V5_arg0 : V5 m ρ c main_arg0 = m ((c : Thread nD τ).loc main_arg0) := by
  show W5 m ρ c (Proc.devRef .tc main_arg0) = _
  rw [Entry.W5_eq, Entry.between_arg0, Entry.W2_arg0, W1_arg0]
theorem V5_arg1 : V5 m ρ c main_arg1 = m ((c : Thread nD τ).loc main_arg1) := by
  show W5 m ρ c (Proc.devRef .tc main_arg1) = _
  rw [Entry.W5_eq, Entry.between_arg1, Entry.W2_arg1, W1_arg1]

/-! ## The result -/

/-- The kernel program's result, from the launch memory. -/
def result : S50000x1000.Idx → EReal :=
  Layer1.gate (s1 m c)
    (extractStridedSlice S64x1000 ![0, 0] (m ((c : Thread nD τ).loc main_arg4)) Facts₀.slices_S64x2000_S64x1000_0_0)
    (extractStridedSlice S64x1000 ![0, 1000] (m ((c : Thread nD τ).loc main_arg4)) Facts₀.slices_S64x2000_S64x1000_0_1000)
    (shapeCast S1x1000 (extractStridedSlice S1000 ![0] (m ((c : Thread nD τ).loc main_arg5)) Facts₀.slices_S2000_S1000_0) Facts₀.shapeCasts_S1000_S1x1000)
    (shapeCast S1x1000 (extractStridedSlice S1000 ![1000] (m ((c : Thread nD τ).loc main_arg5)) Facts₀.slices_S2000_S1000_1000) Facts₀.shapeCasts_S1000_S1x1000)
    (m ((c : Thread nD τ).loc main_arg0)) (m ((c : Thread nD τ).loc main_arg1))

theorem W6_value : W6 m ρ c (Proc.devRef .tc main_v56) = result m c := by
  refine (W6_result m ρ c).trans ((Layer1.final (V5 m ρ) c).trans ?_)
  unfold result
  rw [V5_rows, V5_wb, V5_wg, V5_bb, V5_bg, V5_arg0, V5_arg1]

/-- Every weakly fair execution of the kernel program terminates, nothing faulting, with the result buffer at
    `result` of the launch memory and the arguments as launched. -/
theorem run_value : θ_run defs (onTc (τ := τ) (main (F := Ideal))) ⟨m, fun _ => 0, ρ⟩ (fun r => ∀ c : Dev nD,
      r.2.mem ((c.tc : Thread nD τ).loc main_v56) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W6_value m ρ c), (h c).2⟩) (run_result m ρ)

end Cert.KernelIdeal.Whole

end
-- ==== Proof.LibColumnCast.lean ====
/-
  Two small general facts.

  A vector of `a` entries reshaped into a column `[a, 1]` reads, at `(i, u)`, the vector at `i`: both row-major
  positions are `i`. And a sum over `m + n` positions is the sum over the first `m` plus the sum over the last `n`, in
  any commutative monoid; it is stated over an index type `Fin N` with `N = m + n` given as an equation, so that it
  applies to a literal extent.
-/
import Idealize.ShloMosaic.Lib.Pipeline.Value
import Idealize.ShloMosaic.Lib.ValueIdx
import Idealize.ShloMosaic.Lib.ValueLayout

noncomputable section

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum over `N = m + n` positions splits into the first `m` and the last `n`. -/
theorem sum_fin_split {M : Type*} [AddCommMonoid M] {N : ℕ} (m n : ℕ) (hN : N = m + n) (g : Fin N → M) :
    ∑ k : Fin N, g k
      = ∑ k : Fin m, g ⟨k.val, by have := k.isLt; omega⟩ + ∑ k : Fin n, g ⟨m + k.val, by have := k.isLt; omega⟩ := by
  subst hN
  rw [Fin.sum_univ_add]
  rfl

end Idealize.ShloMosaic.ValueIdx

end
-- ==== Proof.Bridge.lean ====
/-
  The two places where the programs differ, index by index on the extended reals.

  LAYER 0. The reference joins the two feature arrays side by side (2000 columns) and multiplies by the whole weight
  (2000 rows); the kernel multiplies each feature array by its half of the weight and adds:

      Σ_{k < 2000} [xu | xs][r, k] · w[k, j]  =  Σ_{k < 1000} xu[r, k] · w[k, j]  +  Σ_{k < 1000} xs[r, k] · w[1000 + k, j].

  A sum over 2000 positions is the sum over the first 1000 plus the sum over the last 1000: only that addition of
  extended reals is commutative and associative is used, so no entry needs to be finite. Both sides then scale row
  `r` by the same source norm.

  LAYER 1. The reference multiplies by the whole weight (2000 columns), adds the whole bias, and takes columns `j` and
  `1000 + j` of the result; the kernel multiplies by each column half, adds that half of the bias, and lands at column
  `j` directly. Entry for entry these are the same sums of the same products; both sides gate with the same features.
-/
import proofs.«166413_j1649267442174_2_alg».proof.Proof.Region0
import proofs.«166413_j1649267442174_2_alg».proof.Proof.Region1
import proofs.«166413_j1649267442174_2_alg».proof.Proof.Mid
import proofs.«166413_j1649267442174_2_alg».proof.Proof.LibColumnCast
import Idealize.ShloMosaic.Lib.ValueLayout

set_option maxRecDepth 16384

noncomputable section

namespace Cert.Bridge

open Idealize.ShloMosaic Idealize.ShloMosaic.ValueIdx
open Cert.ReferenceIdeal.Read

/-- The layer-0 projection, row-scaled: the kernel's two half products added are the reference's one product of the
    joined features. -/
theorem layer0 (x0 x1 : (⟨Cert.ReferenceIdeal.S50000x1000, .f32⟩ : BufTy).Contents (Elt Ideal))
    (x2 : (⟨Cert.ReferenceIdeal.S2000x64, .f32⟩ : BufTy).Contents (Elt Ideal))
    (x6 : (⟨Cert.ReferenceIdeal.S1600000, .i32⟩ : BufTy).Contents (Elt Ideal)) :
    Cert.KernelIdeal.Layer0.rows x0 x1
        (extractStridedSlice Cert.KernelIdeal.S1000x64 ![0, 0] x2 Cert.KernelIdeal.Facts₀.slices_S2000x64_S1000x64_0_0)
        (extractStridedSlice Cert.KernelIdeal.S1000x64 ![1000, 0] x2 Cert.KernelIdeal.Facts₀.slices_S2000x64_S1000x64_1000_0)
        (shapeCast Cert.KernelIdeal.S50000x1 (val_main_v9 (F := Ideal) x6) Cert.KernelIdeal.Facts₀.shapeCasts_S50000_S50000x1)
      = val_main_v17 (F := Ideal) x0 x1 x2 x6 := by
  funext i
  obtain ⟨r, q, rfl⟩ : ∃ (r : Fin 50000) (q : Fin 64), i = ix2 r q := ⟨i 0, i 1, eq_ix2 i⟩
  rw [Cert.KernelIdeal.Layer0.rows_apply]
  refine Eq.trans ?_ (val_main_v17_apply (F := Ideal) x0 x1 x2 x6 (ix2 r q)).symm
  show _ = val_main_v14 (F := Ideal) x0 x1 x2 (ix2 r q) * val_main_v16 (F := Ideal) x6 (ix2 r q)
  refine congrArg₂ (· * ·) ?_ ?_
  · -- the contraction: 2000 positions are the first 1000 and the last 1000
    rw [val_main_v14_apply, sum_fin_split 1000 1000 rfl]
    refine congrArg₂ (· + ·) (Finset.sum_congr rfl fun k _ => ?_) (Finset.sum_congr rfl fun k _ => ?_)
    · refine congrArg₂ (· * ·) ?_ ?_
      · unfold val_main_v13
        symm
        refine concatenate_pair_apply_left (t := Cert.ReferenceIdeal.S50000x2000) (1 : Fin 2) x0 x1 _ _ rfl (ix2 r k) (fun b => ?_)
        match b with
        | ⟨0, _⟩ => rfl
        | ⟨1, _⟩ => rfl
      · exact extractStridedSlice_apply ![0, 0] x2 _ (ix2 k q) _ (fun a => match a with
          | ⟨0, _⟩ => by show k.val = 0 + k.val; omega
          | ⟨1, _⟩ => by show q.val = 0 + q.val; omega)
    · refine congrArg₂ (· * ·) ?_ ?_
      · unfold val_main_v13
        symm
        refine concatenate_pair_apply_right (t := Cert.ReferenceIdeal.S50000x2000) (1 : Fin 2) x0 x1 _ _ rfl rfl (ix2 r k) (fun b hb => ?_) ?_
        · match b, hb with
          | ⟨0, _⟩, _ => rfl
          | ⟨1, _⟩, hb => exact absurd rfl hb
        · show k.val + 1000 = 1000 + k.val
          omega
      · exact extractStridedSlice_apply ![1000, 0] x2 _ (ix2 k q) _ (fun a => match a with
          | ⟨0, _⟩ => by show 1000 + k.val = 1000 + k.val; rfl
          | ⟨1, _⟩ => by show q.val = 0 + q.val; omega)
  · -- the row scale: the norm column at row `r` is the norm vector at `r`
    rw [val_main_v16_apply, val_main_v15_apply]
    refine (shapeCast_a_a1_apply _ _ r 0).trans ?_
    exact congrArg _ (funext fun a => match a with | ⟨0, _⟩ => rfl)

/-- The layer-1 projection and the gate: the kernel's two column halves are the reference's columns `j` and `1000 + j`. -/
theorem layer1 (x0 x1 : (⟨Cert.ReferenceIdeal.S50000x1000, .f32⟩ : BufTy).Contents (Elt Ideal))
    (x2 : (⟨Cert.ReferenceIdeal.S2000x64, .f32⟩ : BufTy).Contents (Elt Ideal))
    (x3 : (⟨Cert.ReferenceIdeal.S64, .f32⟩ : BufTy).Contents (Elt Ideal))
    (x4 : (⟨Cert.ReferenceIdeal.S64x2000, .f32⟩ : BufTy).Contents (Elt Ideal))
    (x5 : (⟨Cert.ReferenceIdeal.S2000, .f32⟩ : BufTy).Contents (Elt Ideal))
    (x6 x7 : (⟨Cert.ReferenceIdeal.S1600000, .i32⟩ : BufTy).Contents (Elt Ideal)) :
    Cert.KernelIdeal.Layer1.gate (val_main_v50 (F := Ideal) x0 x1 x2 x3 x6 x7)
        (extractStridedSlice Cert.KernelIdeal.S64x1000 ![0, 0] x4 Cert.KernelIdeal.Facts₀.slices_S64x2000_S64x1000_0_0)
        (extractStridedSlice Cert.KernelIdeal.S64x1000 ![0, 1000] x4 Cert.KernelIdeal.Facts₀.slices_S64x2000_S64x1000_0_1000)
        (shapeCast Cert.KernelIdeal.S1x1000 (extractStridedSlice Cert.KernelIdeal.S1000 ![0] x5 Cert.KernelIdeal.Facts₀.slices_S2000_S1000_0)
          Cert.KernelIdeal.Facts₀.shapeCasts_S1000_S1x1000)
        (shapeCast Cert.KernelIdeal.S1x1000 (extractStridedSlice Cert.KernelIdeal.S1000 ![1000] x5 Cert.KernelIdeal.Facts₀.slices_S2000_S1000_1000)
          Cert.KernelIdeal.Facts₀.shapeCasts_S1000_S1x1000)
        x0 x1
      = val_main_v59 (F := Ideal) x0 x1 x2 x3 x4 x5 x6 x7 := by
  funext i
  obtain ⟨r, q, rfl⟩ : ∃ (r : Fin 50000) (q : Fin 1000), i = ix2 r q := ⟨i 0, i 1, eq_ix2 i⟩
  rw [Cert.KernelIdeal.Layer1.gate_apply]
  refine Eq.trans ?_ (val_main_v59_apply (F := Ideal) x0 x1 x2 x3 x4 x5 x6 x7 (ix2 r q)).symm
  show _ = val_main_v57 (F := Ideal) x0 x1 x2 x3 x4 x5 x6 x7 (ix2 r q) + val_main_v58 (F := Ideal) x0 x1 x2 x3 x4 x5 x6 x7 (ix2 r q)
  refine congrArg₂ (· + ·) ?_ ?_
  · refine Eq.trans ?_ (val_main_v57_apply (F := Ideal) x0 x1 x2 x3 x4 x5 x6 x7 (ix2 r q)).symm
    show _ = val_main_v55 (F := Ideal) x0 x1 x2 x3 x4 x5 x6 x7 (ix2 r q) * x0 (ix2 r q)
    refine congrArg (· * x0 (ix2 r q)) ?_
    rw [val_main_v55_apply]
    refine Eq.trans ?_ (val_main_v54_apply (F := Ideal) x0 x1 x2 x3 x4 x5 x6 x7 (idx_main_v55 (ix2 r q))).symm
    show _ = val_main_v51 (F := Ideal) x0 x1 x2 x3 x4 x6 x7 (idx_main_v55 (ix2 r q)) + val_main_v53 (F := Ideal) x5 (idx_main_v55 (ix2 r q))
    refine congrArg₂ (· + ·) ?_ ?_
    · rw [val_main_v51_apply]
      refine Finset.sum_congr rfl fun k _ => congrArg₂ (· * ·) ?_ ?_
      · exact congrArg _ (funext fun a => match a with | ⟨0, _⟩ => rfl | ⟨1, _⟩ => rfl)
      · exact extractStridedSlice_apply ![0, 0] x4 _ (ix2 k q) _ (fun a => match a with
          | ⟨0, _⟩ => by show k.val = 0 + k.val; omega
          | ⟨1, _⟩ => by show q.val = 0 + q.val; omega)
    · rw [val_main_v53_apply, val_main_v52_apply]
      refine (shapeCast_a_1a_apply _ _ 0 q).trans ?_
      exact extractStridedSlice_apply ![0] x5 _ (ix1 q) _ (fun a => match a with
        | ⟨0, _⟩ => by show q.val = 0 + q.val; omega)
  · refine Eq.trans ?_ (val_main_v58_apply (F := Ideal) x0 x1 x2 x3 x4 x5 x6 x7 (ix2 r q)).symm
    show _ = val_main_v56 (F := Ideal) x0 x1 x2 x3 x4 x5 x6 x7 (ix2 r q) * x1 (ix2 r q)
    refine congrArg (· * x1 (ix2 r q)) ?_
    rw [val_main_v56_apply]
    refine Eq.trans ?_ (val_main_v54_apply (F := Ideal) x0 x1 x2 x3 x4 x5 x6 x7 (idx_main_v56 (ix2 r q))).symm
    show _ = val_main_v51 (F := Ideal) x0 x1 x2 x3 x4 x6 x7 (idx_main_v56 (ix2 r q)) + val_main_v53 (F := Ideal) x5 (idx_main_v56 (ix2 r q))
    refine congrArg₂ (· + ·) ?_ ?_
    · rw [val_main_v51_apply]
      refine Finset.sum_congr rfl fun k _ => congrArg₂ (· * ·) ?_ ?_
      · exact congrArg _ (funext fun a => match a with | ⟨0, _⟩ => rfl | ⟨1, _⟩ => rfl)
      · exact extractStridedSlice_apply ![0, 1000] x4 _ (ix2 k q) _ (fun a => match a with
          | ⟨0, _⟩ => by show k.val = 0 + k.val; omega
          | ⟨1, _⟩ => by show 1000 + q.val = 1000 + q.val; rfl)
    · rw [val_main_v53_apply, val_main_v52_apply]
      refine (shapeCast_a_1a_apply _ _ 0 q).trans ?_
      exact extractStridedSlice_apply ![1000] x5 _ (ix1 q) _ (fun a => match a with
        | ⟨0, _⟩ => by show 1000 + q.val = 1000 + q.val; rfl)

end Cert.Bridge

end
-- ==== Proof.lean ====
/-
  A two-layer graph convolution with an elementwise gate, kernel against reference, over the extended reals.

  Both programs compute, from two feature arrays `xu`, `xs` (50000 nodes × 1000), weights `W0` (2000 × 64), `W1`
  (64 × 2000), biases `b0`, `b1` and an edge list `(src, dst)`:

      ns, nd  = the source and destination degree norms                               (host, the same operations)
      h0      = ([xu | xs] · W0) · ns                                                  (layer 0, projected first)
      s       = A (relu (A h0 · nd + b0) · ns) · nd        A = the edge aggregation    (host, the same operations)
      x       = s · W1 + b1,   result = x[:, :1000] · xu + x[:, 1000:] · xs           (layer 1 and the gate)

  The kernel makes `h0` in a first pallas_call as `(xu · W0[:1000] + xs · W0[1000:]) · ns` and the last line in a
  second one from the column halves of `W1` and `b1`. The two differences are a sum over 2000 positions split into
  two sums over 1000, and a column slice taken before the product instead of after it (module Bridge): both hold for
  all extended reals, so the finiteness precondition is never opened. The edge aggregations are never opened either:
  they are the same function on both sides, applied to equal arrays (module Mid).

  The frames of the two kernel programs are the generated ones; the reference's is its generated run with the result
  dropped. The idealization rewrote nothing, so there is nothing to preserve.
-/
import proofs.«166413_j1649267442174_2_alg».proof.Defs
import proofs.«166413_j1649267442174_2_alg».proof.Proof.Gen.Kernel
import proofs.«166413_j1649267442174_2_alg».proof.Proof.Gen.Kernel.Frame
import proofs.«166413_j1649267442174_2_alg».proof.Proof.Gen.KernelIdeal
import proofs.«166413_j1649267442174_2_alg».proof.Proof.Gen.KernelIdeal.Frame
import proofs.«166413_j1649267442174_2_alg».proof.Proof.Gen.ReferenceIdeal
import proofs.«166413_j1649267442174_2_alg».proof.Proof.Gen.ReferenceIdeal.Run
import proofs.«166413_j1649267442174_2_alg».proof.Proof.Gen.ReferenceIdeal.Read
import proofs.«166413_j1649267442174_2_alg».proof.Proof.Gen.Pre_finite_inputs
import proofs.«166413_j1649267442174_2_alg».proof.Proof.KernelValue
import proofs.«166413_j1649267442174_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program's result is the reference's last stage, of the same arguments: the layer-0 features agree
    (the split sum), hence the layer-1 inputs (the shared middle chain of equal arrays), hence the gated results (the
    column halves). -/
theorem result_eq (m : (ℓ : Loc Cert.KernelIdeal.nD Cert.KernelIdeal.τ Cert.KernelIdeal.sig) → Buf (Elt Ideal) ℓ)
    (c : Dev Cert.KernelIdeal.nD) :
    Cert.KernelIdeal.Whole.result m c
      = Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  have e0 : Cert.KernelIdeal.Whole.h0 m c
      = Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg6)) := Cert.Bridge.layer0 _ _ _ _
  have e1 : Cert.KernelIdeal.Whole.s1 m c
      = Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
    unfold Cert.KernelIdeal.Whole.s1
    rw [e0]
    exact (Cert.ReferenceIdeal.Mid.ref_mid _ _ _ _ _ _).symm
  unfold Cert.KernelIdeal.Whole.result
  rw [e1]
  exact Cert.Bridge.layer1 _ _ _ _ _ _ _ _

/-- From memories that agree on the arguments both programs run, and end with equal results. -/
theorem algebraic : Cert.algebraic_KernelIdeal_ReferenceIdeal := by
  intro m ρ m' ρ' _ hagree
  refine ⟨fun c => Cert.KernelIdeal.Whole.result m c, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v59_eq, a0, a1, a2, a3, a4, a5, a6, a7]
  exact (result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
